-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024x1024 .f32) (main_v63 : IVec S_ 1) (main_v67 : IVec S_ 1) : IVec S_ 1 :=
  let main_v68 : IVec S_ 1 := andi main_v63 main_v67
  let main_v69 : FVec F S1024x1024 .f32 := Host.absf main_arg14
  let main_cst_26 : FVec F S_ .f32 := constant S_ .f32 0x7F800000#32
  let main_v70 : FVec F S1024x1024 .f32 := broadcastInDim S1024x1024 ![] bcast_S_S1024x1024 main_cst_26
  let main_v71 : IVec S1024x1024 1 := cmpf .olt main_v69 main_v70
  let main_c_27 : IVec S_ 1 := constantI S_ 1 1#1
  let main_v72 : IVec S_ 1 := (fun x v => Host.reduce IntOp.andi x v reducesTo_S1024x1024_S_d0_1 h_S_) main_v71 main_c_27
  let main_v73 : IVec S_ 1 := andi main_v68 main_v72
  main_v73

def fn_part3 {F : FTy → Type} [FloatOps F] (main_arg11 : FVec F S1024x1024 .f32) (main_arg12 : FVec F S1024x1024 .f32) (main_arg13 : FVec F S1024x1024 .f32) (main_arg14 : FVec F S1024x1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_v63 main_v67

def fn_part2 {F : FTy → Type} [FloatOps F] (main_arg7 : FVec F S1024 .f32) (main_arg8 : FVec F S1024 .f32) (main_arg9 : FVec F S1024 .f32) (main_arg10 : FVec F S1024 .f32) (main_arg11 : FVec F S1024x1024 .f32) (main_arg12 : FVec F S1024x1024 .f32) (main_arg13 : FVec F S1024x1024 .f32) (main_arg14 : FVec F S1024x1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_v48 main_v49 main_v50

def fn_part1 {F : FTy → Type} [FloatOps F] (main_arg4 : FVec F S1024x1024 .f32) (main_arg5 : FVec F S1024x1024 .f32) (main_arg6 : FVec F S1024x1024 .f32) (main_arg7 : FVec F S1024 .f32) (main_arg8 : FVec F S1024 .f32) (main_arg9 : FVec F S1024 .f32) (main_arg10 : FVec F S1024 .f32) (main_arg11 : FVec F S1024x1024 .f32) (main_arg12 : FVec F S1024x1024 .f32) (main_arg13 : FVec F S1024x1024 .f32) (main_arg14 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4096x1024 .f32) (main_arg1 : FVec F S4096x1024 .f32) (main_arg2 : FVec F S4096x1024 .f32) (main_arg3 : FVec F S1024x1024 .f32) (main_arg4 : FVec F S1024x1024 .f32) (main_arg5 : FVec F S1024x1024 .f32) (main_arg6 : FVec F S1024x1024 .f32) (main_arg7 : FVec F S1024 .f32) (main_arg8 : FVec F S1024 .f32) (main_arg9 : FVec F S1024 .f32) (main_arg10 : FVec F S1024 .f32) (main_arg11 : FVec F S1024x1024 .f32) (main_arg12 : FVec F S1024x1024 .f32) (main_arg13 : FVec F S1024x1024 .f32) (main_arg14 : FVec F S1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩

abbrev nBuf : Space → Nat
  | .hbm => 37
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .bf16⟩
  | .hbm, ⟨17, _⟩ => ⟨S1024x1024, .f32⟩
  | .hbm, ⟨18, _⟩ => ⟨S1024x1024, .bf16⟩
  | .hbm, ⟨19, _⟩ => ⟨S1024x1024, .f32⟩
  | .hbm, ⟨20, _⟩ => ⟨S1024x1024, .bf16⟩
  | .hbm, ⟨21, _⟩ => ⟨S1024x1024, .f32⟩
  | .hbm, ⟨22, _⟩ => ⟨S1024x1024, .bf16⟩
  | .hbm, ⟨23, _⟩ => ⟨S1024x1024, .f32⟩
  | .hbm, ⟨24, _⟩ => ⟨S1024x1024, .bf16⟩
  | .hbm, ⟨25, _⟩ => ⟨S1024x1024, .f32⟩
  | .hbm, ⟨26, _⟩ => ⟨S1024x1024, .bf16⟩
  | .hbm, ⟨27, _⟩ => ⟨S1024x1024, .f32⟩
  | .hbm, ⟨28, _⟩ => ⟨S1024x1024, .bf16⟩
  | .hbm, ⟨29, _⟩ => ⟨S1024x1024, .f32⟩
  | .hbm, ⟨30, _⟩ => ⟨S1024x1024, .bf16⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S4096x1024, .f32⟩
  | .hbm, ⟨36, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20_0 : Ref sig .tc := ⟨.hbm, 35, rfl⟩
abbrev main_v20_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .bf16 = 32 ∨ (Rect.block (s := S1024x1024) S1024x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1024.size a ≤ S1x1024.size a
  hwx0_12 : ∀ i : grid0.Coords, EltTy.bits .f32 = 32 ∨ (Rect.block (s := S1x1024) S1x1024.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1024.size a ≤ S1x1024.size a
  hwx0_13 : ∀ i : grid0.Coords, EltTy.bits .f32 = 32 ∨ (Rect.block (s := S1x1024) S1x1024.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1024.size a ≤ S1x1024.size a
  hwx0_14 : ∀ i : grid0.Coords, EltTy.bits .f32 = 32 ∨ (Rect.block (s := S1x1024) S1x1024.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S256x1024.size a ≤ S4096x1024.size a
  hwx0_15 : ∀ i : grid0.Coords, EltTy.bits .f32 = 32 ∨ (Rect.block (s := S4096x1024) S256x1024.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S256x1024.size a ≤ S4096x1024.size a
  hwx0_16 : ∀ i : grid0.Coords, EltTy.bits .f32 = 32 ∨ (Rect.block (s := S4096x1024) S256x1024.size (cc0_transform_16 i) (hinb0_16 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v15) S1024x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v16) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v17) S1x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v18) S1x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v19) S1x1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v20_0) S256x1024.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v20_1) S256x1024.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S4096 : Shape := ⟨1, ![4096]⟩
abbrev S1024x4096 : Shape := ⟨2, ![1024, 4096]⟩
abbrev S4096x4096 : Shape := ⟨2, ![4096, 4096]⟩
abbrev S1x4096 : Shape := ⟨2, ![1, 4096]⟩
abbrev S_ : Shape := ⟨0, ![]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S4096x1024, .f32⟩
  | .hbm, ⟨16, _⟩ => ⟨S4096, .f32⟩
  | .hbm, ⟨17, _⟩ => ⟨S4096x1024, .f32⟩
  | .hbm, ⟨18, _⟩ => ⟨S1024x4096, .f32⟩
  | .hbm, ⟨19, _⟩ => ⟨S4096x4096, .f32⟩
  | .hbm, ⟨20, _⟩ => ⟨S1x4096, .f32⟩
  | .hbm, ⟨21, _⟩ => ⟨S4096x4096, .f32⟩
  | .hbm, ⟨22, _⟩ => ⟨S4096x4096, .f32⟩
  | .hbm, ⟨23, _⟩ => ⟨S1024x4096, .f32⟩
  | .hbm, ⟨24, _⟩ => ⟨S4096x4096, .f32⟩
  | .hbm, ⟨25, _⟩ => ⟨S4096x4096, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_cst_0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_1 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_cst_4 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]

class Facts₀ : Prop where
  concatenates_S1024x1024_S1024x1024_S1024x1024_S1024x1024_S4096x1024_d0 : Shape.Concatenates [S1024x1024, S1024x1024, S1024x1024, S1024x1024] S4096x1024 0
  concatenates_S1024_S1024_S1024_S1024_S4096_d0 : Shape.Concatenates [S1024, S1024, S1024, S1024] S4096 0
  transposes_S4096x1024_S1024x4096_1_0 : S4096x1024.Transposes [1, 0] S1024x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.LibRowOfVector.lean ====
/-
  A bias vector as an array of one row, two ways.

  A vector of length `a` can be made an array of shape `[1, a]` by a reshape (row-major positions are kept) or by a
  broadcast that sends the vector's axis to the array's second axis. Both arrays have entry `(0, q)` equal to entry `q`
  of the vector, so they are the same array. A tiled kernel usually receives its bias in the first form, a whole-array
  reference usually builds the second.
-/
import Idealize.ShloMosaic.Lib.ValueLayout
import Idealize.ShloMosaic.Lib.ValueIdx
import Idealize.ShloMosaic.Lib.Pipeline.Value

noncomputable section

namespace Cert.LibRowOfVector

open Idealize.ShloMosaic Idealize.ShloMosaic.ValueIdx

/-- A vector reshaped to an array of one row is the vector broadcast along that row: entry `(0, q)` of either is
    entry `q` of the vector. Holds for any element type and any length (for length one the broadcast reads index
    `0`, which is the only index). -/
theorem row_of_vector {α : Type} {a : ℕ} (x : (⟨1, ![a]⟩ : Shape).Idx → α) (h : (⟨1, ![a]⟩ : Shape).ShapeCasts ⟨2, ![1, a]⟩)
    (hb : (⟨1, ![a]⟩ : Shape).BroadcastsInDim ⟨2, ![1, a]⟩ ![1]) :
    shapeCast ⟨2, ![1, a]⟩ x h = broadcastInDim ⟨2, ![1, a]⟩ ![1] hb x := by
  funext i
  obtain ⟨u, q, rfl⟩ : ∃ (u : Fin 1) (q : Fin a), i = ix2 u q := ⟨i 0, i 1, eq_ix2 i⟩
  rw [shapeCast_a_1a_apply]
  refine (broadcastInDim_apply _ hb x (ix2 u q) (ix1 q) (fun d => ?_)).symm
  match d with
  | ⟨0, _⟩ =>
    show q.val = if a = 1 then 0 else q.val
    split
    · have := q.isLt; omega
    · rfl

end Cert.LibRowOfVector

end
-- ==== Proof.LibHostBroadcast.lean ====
/-
  Two host broadcasts read at an entry.

  A one-row array [1, b] broadcast to [a, b] with both axes kept (dims = [0, 1]) reads, at (i, q), the row's entry
  (0, q): the unit axis reads index 0, the other axis its own coordinate (and when b = 1 that coordinate is 0 too).
  A scalar broadcast to any shape (dims = []) reads the scalar at every entry. These are the forms a whole-array
  reference builds a bias row and a constant array in.
-/
import Idealize.ShloMosaic.Lib.ValueIdx
import Idealize.ShloMosaic.Lib.Pipeline.Value

noncomputable section

namespace Cert.LibHostBroadcast

open Idealize.ShloMosaic Idealize.ShloMosaic.ValueIdx

/-- A one-row array broadcast down the rows (both axes kept) reads, at (i, q), the row's entry (0, q). -/
theorem bcast_rows_apply {α : Type} {a b : ℕ} (v : (⟨2, ![1, b]⟩ : Shape).Idx → α)
    (h : (⟨2, ![1, b]⟩ : Shape).BroadcastsInDim ⟨2, ![a, b]⟩ ![0, 1]) (i : Fin a) (q : Fin b) :
    broadcastInDim ⟨2, ![a, b]⟩ ![0, 1] h v (ix2 i q) = v (ix2 (0 : Fin 1) q) := by
  refine broadcastInDim_apply _ h v (ix2 i q) (ix2 (0 : Fin 1) q) fun d => ?_
  match d with
  | ⟨0, _⟩ => rfl
  | ⟨1, _⟩ =>
    show q.val = if b = 1 then 0 else q.val
    split
    · have := q.isLt; omega
    · rfl

/-- A scalar broadcast to an array reads the scalar at every entry. -/
theorem bcast_scalar_apply {α : Type} {t : Shape} (v : (⟨0, ![]⟩ : Shape).Idx → α)
    (h : (⟨0, ![]⟩ : Shape).BroadcastsInDim t ![]) (j : t.Idx) :
    broadcastInDim t ![] h v j = v ix0 :=
  broadcastInDim_apply _ h v j ix0 fun d => d.elim0

end Cert.LibHostBroadcast

end
-- ==== Proof.LibBiasRow.lean ====
/-
  A bias row added to every row of an array, with no activation, entry by entry.

  The last layer of a network adds a bias to every row of an [a, n] array and stops there. Entry (i, d) of the result is
  A(i, d) + b(d), with the bias given as an array of one row [1, n]. A whole-array program builds that row from a
  vector of length n by two broadcasts; a tiled program receives the vector reshaped to one row and adds it to a block
  of rows at a time. Entry (i, d) uses row i of A only, so a block of rows with a copy of the bias row is that block of
  the whole result. Any extents; no finiteness is used.
-/
import proofs.«152714_j31602369364394_2_alg».proof.Proof.LibRowOfVector
import proofs.«152714_j31602369364394_2_alg».proof.Proof.LibHostBroadcast
import Idealize.ShloMosaic.PureOps.Ideal
import Idealize.ShloMosaic.Lib.ValueIdx
import Idealize.ShloMosaic.Lib.ValueLayout
import Idealize.ShloMosaic.Lib.Pipeline.Value

noncomputable section

namespace Cert.BiasRow

open Idealize.ShloMosaic Idealize.ShloMosaic.ValueIdx

/-- Bias row added to every row. -/
def biasedRow {a n : Nat} (A : (⟨2, ![a, n]⟩ : Shape).Idx → EReal) (b : (⟨2, ![1, n]⟩ : Shape).Idx → EReal) :
    (⟨2, ![a, n]⟩ : Shape).Idx → EReal :=
  fun i => A i + b (ix2 (0 : Fin 1) (i 1))

theorem biasedRow_apply {a n : Nat} (A : (⟨2, ![a, n]⟩ : Shape).Idx → EReal) (b : (⟨2, ![1, n]⟩ : Shape).Idx → EReal)
    (p : Fin a) (d : Fin n) : biasedRow A b (ix2 p d) = A (ix2 p d) + b (ix2 (0 : Fin 1) d) := rfl

/-- The host's add-bias, with the bias broadcast from a vector to one row and that row down the rows, is the biased
    array with the bias vector laid out as one row. -/
theorem hostBias {a n : Nat} (A : FVec Ideal ⟨2, ![a, n]⟩ .f32) (b : FVec Ideal ⟨1, ![n]⟩ .f32)
    (h1 : (⟨2, ![1, n]⟩ : Shape).BroadcastsInDim ⟨2, ![a, n]⟩ ![0, 1])
    (h2 : (⟨1, ![n]⟩ : Shape).BroadcastsInDim ⟨2, ![1, n]⟩ ![1])
    (hs : (⟨1, ![n]⟩ : Shape).ShapeCasts ⟨2, ![1, n]⟩) :
    addf A (broadcastInDim ⟨2, ![a, n]⟩ ![0, 1] h1 (broadcastInDim ⟨2, ![1, n]⟩ ![1] h2 b))
      = biasedRow A (shapeCast ⟨2, ![1, n]⟩ b hs) := by
  funext i
  obtain ⟨p, d, rfl⟩ : ∃ (p : Fin a) (d : Fin n), i = ix2 p d := ⟨i 0, i 1, eq_ix2 i⟩
  rw [biasedRow_apply]
  show A (ix2 p d) + broadcastInDim ⟨2, ![a, n]⟩ ![0, 1] h1 (broadcastInDim ⟨2, ![1, n]⟩ ![1] h2 b) (ix2 p d) = _
  rw [Cert.LibHostBroadcast.bcast_rows_apply, ← Cert.LibRowOfVector.row_of_vector b hs h2]

/-- A row of the biased array depends on its own row only: a block of rows, with a copy of the bias row, is that block
    of the biased whole array. -/
theorem biasedRow_of_rows {B M n : Nat} (ab : (⟨2, ![B, n]⟩ : Shape).Idx → EReal) (bb : (⟨2, ![1, n]⟩ : Shape).Idx → EReal)
    (A : (⟨2, ![M, n]⟩ : Shape).Idx → EReal) (b : (⟨2, ![1, n]⟩ : Shape).Idx → EReal) (p : Fin B) (d : Fin n) (i : Fin M)
    (hA : ab (ix2 p d) = A (ix2 i d)) (hb : bb (ix2 (0 : Fin 1) d) = b (ix2 (0 : Fin 1) d)) :
    biasedRow ab bb (ix2 p d) = biasedRow A b (ix2 i d) := by
  rw [biasedRow_apply, biasedRow_apply, hA, hb]

end Cert.BiasRow

end
-- ==== Proof.LibDense.lean ====
/-
  Dense layers over the extended reals, entry by entry.

  A dense layer multiplies an [m, k] array by a [k, n] array and adds a bias row to every row of the product:
  entry (i, j) of the result is the sum over c of A(i, c) * W(c, j), plus b(j). The host spells the product as one
  dot_general and the bias as two broadcasts; its sigmoid as 1 / (1 + exp (-x)), which on the extended reals is the
  logistic function itself (with its limits 0 and 1 at the two infinities). No finiteness is used anywhere: only the
  shape of the sums.
-/
import Idealize.ShloMosaic.Lib.ValueIdx
import Idealize.ShloMosaic.PureOps.Ideal
import Idealize.ShloMosaic.PureOps.Ideal.Laws
import proofs.«152714_j31602369364394_2_alg».proof.Proof.LibBiasRow

noncomputable section

namespace Cert.LibDense

open Idealize.ShloMosaic Idealize.ShloMosaic.ValueIdx

/-- The product of an [m, k] array by a [k, n] array: entry (i, j) is the sum over c of A(i, c) * B(c, j). -/
def mm {m k n : Nat} (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem mm_apply {m k n : Nat} (A : (⟨2, ![m, k]⟩ : Shape).Idx → EReal) (B : (⟨2, ![k, n]⟩ : Shape).Idx → EReal)
    (a : Fin m) (b : Fin n) : mm A B (ix2 a b) = ∑ c : Fin k, A (ix2 a c) * B (ix2 c b) := rfl

/-- The operand entries a plain product reads at output entry (a, b) and contracted coordinate c. -/
theorem plain_lhsIdx {m k n : Nat} (a : Fin m) (b : Fin n) (c : Fin k) :
    (DotDims.plain m k n).lhsIdx (ix2 a b) ((contrEquiv1 (DotDims.plain m k n) k rfl rfl).symm c) = ix2 a c := by
  have c2 := contrEquiv1_symm_val (DotDims.plain m k n) k rfl rfl c
  funext ax; apply Fin.ext
  match ax with
  | ⟨0, _⟩ => simp [DotDims.lhsIdx, DotDims.plain]; rfl
  | ⟨1, _⟩ => simp [DotDims.lhsIdx, DotDims.plain]; exact c2

theorem plain_rhsIdx {m k n : Nat} (a : Fin m) (b : Fin n) (c : Fin k) :
    (DotDims.plain m k n).rhsIdx (ix2 a b) ((contrEquiv1 (DotDims.plain m k n) k rfl rfl).symm c) = ix2 c b := by
  have c2 := contrEquiv1_symm_val (DotDims.plain m k n) k rfl rfl c
  funext ax; apply Fin.ext
  match ax with
  | ⟨0, _⟩ => simp [DotDims.rhsIdx, DotDims.plain]; exact c2
  | ⟨1, _⟩ => simp [DotDims.rhsIdx, DotDims.plain]; rfl

/-- The host's plain dot_general is the product. -/
theorem hostDot_eq_mm {m k n : Nat} {φ₁ φ₂ : FTy} (prec : Option ContractPrecision)
    (A : FVec Ideal ⟨2, ![m, k]⟩ φ₁) (B : FVec Ideal ⟨2, ![k, n]⟩ φ₂) :
    Host.dotGeneral (DotDims.plain m k n) prec A B = mm A B := by
  funext i
  obtain ⟨a, b, rfl⟩ : ∃ (a : Fin m) (b : Fin n), i = ix2 a b := ⟨i 0, i 1, eq_ix2 i⟩
  rw [mm_apply]
  show FloatOps.dotGeneral _ prec .single A B (ix2 a b) = _
  rw [Ideal.dotGeneral_apply, ← Equiv.sum_comp (contrEquiv1 (DotDims.plain m k n) k rfl rfl).symm]
  refine Finset.sum_congr rfl fun c _ => ?_
  rw [plain_lhsIdx, plain_rhsIdx]

/-- A kernel's plain matmul into the zero accumulator is the product. -/
theorem matmul_eq_mm {m k n : Nat} {φ₁ φ₂ : FTy} (prec : Option ContractPrecision)
    (A : FVec Ideal ⟨2, ![m, k]⟩ φ₁) (B : FVec Ideal ⟨2, ![k, n]⟩ φ₂) :
    matmul (DotDims.plain m k n) prec A B (constant (F := Ideal) ⟨2, ![m, n]⟩ .f32 0x00000000#32) = mm A B := by
  funext i
  obtain ⟨a, b, rfl⟩ : ∃ (a : Fin m) (b : Fin n), i = ix2 a b := ⟨i 0, i 1, eq_ix2 i⟩
  rw [mm_apply]
  show FloatOps.matmul _ prec A B _ (ix2 a b) = _
  rw [Ideal.matmul_constant_zero_apply, ← Equiv.sum_comp (contrEquiv1 (DotDims.plain m k n) k rfl rfl).symm]
  refine Finset.sum_congr rfl fun c _ => ?_
  rw [plain_lhsIdx, plain_rhsIdx]

/-- A dense layer: the product with the bias row added to every row. -/
def dense {m k n : Nat} (A : (⟨2, ![m, k]⟩ : Shape).Idx → EReal) (W : (⟨2, ![k, n]⟩ : Shape).Idx → EReal)
    (b : (⟨2, ![1, n]⟩ : Shape).Idx → EReal) : (⟨2, ![m, n]⟩ : Shape).Idx → EReal :=
  Cert.BiasRow.biasedRow (mm A W) b

theorem dense_apply {m k n : Nat} (A : (⟨2, ![m, k]⟩ : Shape).Idx → EReal) (W : (⟨2, ![k, n]⟩ : Shape).Idx → EReal)
    (b : (⟨2, ![1, n]⟩ : Shape).Idx → EReal) (p : Fin m) (q : Fin n) :
    dense A W b (ix2 p q) = (∑ c : Fin k, A (ix2 p c) * W (ix2 c q)) + b (ix2 (0 : Fin 1) q) := rfl

/-- The host's dense layer (dot_general, then the bias vector broadcast to a row and down the rows) is the dense
    layer with the bias vector laid out as one row. -/
theorem hostDense {m k n : Nat} (A : FVec Ideal ⟨2, ![m, k]⟩ .f32) (W : FVec Ideal ⟨2, ![k, n]⟩ .f32)
    (b : FVec Ideal ⟨1, ![n]⟩ .f32)
    (h1 : (⟨2, ![1, n]⟩ : Shape).BroadcastsInDim ⟨2, ![m, n]⟩ ![0, 1])
    (h2 : (⟨1, ![n]⟩ : Shape).BroadcastsInDim ⟨2, ![1, n]⟩ ![1])
    (hs : (⟨1, ![n]⟩ : Shape).ShapeCasts ⟨2, ![1, n]⟩) :
    addf (Host.dotGeneral (DotDims.plain m k n) none A W)
        (broadcastInDim ⟨2, ![m, n]⟩ ![0, 1] h1 (broadcastInDim ⟨2, ![1, n]⟩ ![1] h2 b))
      = dense A W (shapeCast ⟨2, ![1, n]⟩ b hs) := by
  rw [Cert.BiasRow.hostBias _ b h1 h2 hs, hostDot_eq_mm]; rfl

/-- A one-row array broadcast to [m, n] (trailing axes aligned) reads, at (p, q), the row's entry (0, q). -/
theorem broadcastTo_rows_apply {α : Type} {m n : Nat} (v : (⟨2, ![1, n]⟩ : Shape).Idx → α)
    (h : (⟨2, ![1, n]⟩ : Shape).Broadcasts ⟨2, ![m, n]⟩) (p : Fin m) (q : Fin n) :
    broadcastTo ⟨2, ![m, n]⟩ v h (ix2 p q) = v (ix2 (0 : Fin 1) q) := by
  refine broadcastTo_apply v h (ix2 p q) (ix2 (0 : Fin 1) q) fun a => ?_
  match a with
  | ⟨0, _⟩ => rfl
  | ⟨1, _⟩ =>
    show q.val = if n = 1 then 0 else q.val
    split
    · have := q.isLt; omega
    · rfl

/-- A kernel's dense block: the plain matmul of the loaded blocks into the zero accumulator, plus the loaded bias
    row broadcast down the rows, is the dense layer of the blocks. -/
theorem kernelDense {m k n : Nat} {φ₁ φ₂ : FTy} (x0 : FVec Ideal ⟨2, ![m, k]⟩ φ₁) (x1 : FVec Ideal ⟨2, ![k, n]⟩ φ₂)
    (x2 : FVec Ideal ⟨2, ![1, n]⟩ .f32) (hb : (⟨2, ![1, n]⟩ : Shape).Broadcasts ⟨2, ![m, n]⟩) :
    addf (matmul (DotDims.plain m k n) none x0 x1 (constant (F := Ideal) ⟨2, ![m, n]⟩ .f32 0x00000000#32))
        (broadcastTo ⟨2, ![m, n]⟩ x2 hb)
      = dense x0 x1 x2 := by
  rw [matmul_eq_mm]
  funext i
  obtain ⟨p, q, rfl⟩ : ∃ (p : Fin m) (q : Fin n), i = ix2 p q := ⟨i 0, i 1, eq_ix2 i⟩
  show mm x0 x1 (ix2 p q) + broadcastTo ⟨2, ![m, n]⟩ x2 hb (ix2 p q) = _
  rw [broadcastTo_rows_apply]; rfl

/-- The sum of two products with the bias row added to every row: what a gate applies its activation to. -/
def gatePre {m k n : Nat} (A : (⟨2, ![m, k]⟩ : Shape).Idx → EReal) (X : (⟨2, ![k, n]⟩ : Shape).Idx → EReal)
    (B : (⟨2, ![m, k]⟩ : Shape).Idx → EReal) (H : (⟨2, ![k, n]⟩ : Shape).Idx → EReal)
    (b : (⟨2, ![1, n]⟩ : Shape).Idx → EReal) : (⟨2, ![m, n]⟩ : Shape).Idx → EReal :=
  Cert.BiasRow.biasedRow (fun i => mm A X i + mm B H i) b

theorem gatePre_apply {m k n : Nat} (A : (⟨2, ![m, k]⟩ : Shape).Idx → EReal) (X : (⟨2, ![k, n]⟩ : Shape).Idx → EReal)
    (B : (⟨2, ![m, k]⟩ : Shape).Idx → EReal) (H : (⟨2, ![k, n]⟩ : Shape).Idx → EReal)
    (b : (⟨2, ![1, n]⟩ : Shape).Idx → EReal) (p : Fin m) (q : Fin n) :
    gatePre A X B H b (ix2 p q)
      = ((∑ c : Fin k, A (ix2 p c) * X (ix2 c q)) + ∑ c : Fin k, B (ix2 p c) * H (ix2 c q)) + b (ix2 (0 : Fin 1) q) := rfl

/-- A kernel's gate block before the activation: two plain matmuls into zero accumulators, added, plus the bias row. -/
theorem kernelGatePre {m k n : Nat} {φ₁ φ₂ φ₃ φ₄ : FTy} (x0 : FVec Ideal ⟨2, ![m, k]⟩ φ₁) (x1 : FVec Ideal ⟨2, ![k, n]⟩ φ₂)
    (x2 : FVec Ideal ⟨2, ![m, k]⟩ φ₃) (x3 : FVec Ideal ⟨2, ![k, n]⟩ φ₄)
    (x4 : FVec Ideal ⟨2, ![1, n]⟩ .f32) (hb : (⟨2, ![1, n]⟩ : Shape).Broadcasts ⟨2, ![m, n]⟩) :
    addf (addf (matmul (DotDims.plain m k n) none x0 x1 (constant (F := Ideal) ⟨2, ![m, n]⟩ .f32 0x00000000#32))
            (matmul (DotDims.plain m k n) none x2 x3 (constant (F := Ideal) ⟨2, ![m, n]⟩ .f32 0x00000000#32)))
        (broadcastTo ⟨2, ![m, n]⟩ x4 hb)
      = gatePre x0 x1 x2 x3 x4 := by
  rw [matmul_eq_mm, matmul_eq_mm]
  funext i
  obtain ⟨p, q, rfl⟩ : ∃ (p : Fin m) (q : Fin n), i = ix2 p q := ⟨i 0, i 1, eq_ix2 i⟩
  show (mm x0 x1 (ix2 p q) + mm x2 x3 (ix2 p q)) + broadcastTo ⟨2, ![m, n]⟩ x4 hb (ix2 p q) = _
  rw [broadcastTo_rows_apply]; rfl

/-- The host's gate before the activation: two dot_generals added, plus the bias vector broadcast to a row and down
    the rows. -/
theorem hostGatePre {m k n : Nat} (A : FVec Ideal ⟨2, ![m, k]⟩ .f32) (X : FVec Ideal ⟨2, ![k, n]⟩ .f32)
    (B : FVec Ideal ⟨2, ![m, k]⟩ .f32) (H : FVec Ideal ⟨2, ![k, n]⟩ .f32) (b : FVec Ideal ⟨1, ![n]⟩ .f32)
    (h1 : (⟨2, ![1, n]⟩ : Shape).BroadcastsInDim ⟨2, ![m, n]⟩ ![0, 1])
    (h2 : (⟨1, ![n]⟩ : Shape).BroadcastsInDim ⟨2, ![1, n]⟩ ![1])
    (hs : (⟨1, ![n]⟩ : Shape).ShapeCasts ⟨2, ![1, n]⟩) :
    addf (addf (Host.dotGeneral (DotDims.plain m k n) none A X) (Host.dotGeneral (DotDims.plain m k n) none B H))
        (broadcastInDim ⟨2, ![m, n]⟩ ![0, 1] h1 (broadcastInDim ⟨2, ![1, n]⟩ ![1] h2 b))
      = gatePre A X B H (shapeCast ⟨2, ![1, n]⟩ b hs) := by
  rw [Cert.BiasRow.hostBias _ b h1 h2 hs, hostDot_eq_mm, hostDot_eq_mm]; rfl

theorem gatePre_entry_congr {tm k tn M N : Nat} (x0 : (⟨2, ![tm, k]⟩ : Shape).Idx → EReal)
    (x1 : (⟨2, ![k, tn]⟩ : Shape).Idx → EReal) (x2 : (⟨2, ![tm, k]⟩ : Shape).Idx → EReal)
    (x3 : (⟨2, ![k, tn]⟩ : Shape).Idx → EReal) (x4 : (⟨2, ![1, tn]⟩ : Shape).Idx → EReal)
    (A : (⟨2, ![M, k]⟩ : Shape).Idx → EReal) (X : (⟨2, ![k, N]⟩ : Shape).Idx → EReal)
    (B : (⟨2, ![M, k]⟩ : Shape).Idx → EReal) (H : (⟨2, ![k, N]⟩ : Shape).Idx → EReal)
    (b : (⟨2, ![1, N]⟩ : Shape).Idx → EReal) (p : Fin tm) (q : Fin tn) (i : Fin M) (j : Fin N)
    (h0 : ∀ c, x0 (ix2 p c) = A (ix2 i c)) (h1 : ∀ c, x1 (ix2 c q) = X (ix2 c j))
    (h2 : ∀ c, x2 (ix2 p c) = B (ix2 i c)) (h3 : ∀ c, x3 (ix2 c q) = H (ix2 c j))
    (h4 : x4 (ix2 (0 : Fin 1) q) = b (ix2 (0 : Fin 1) j)) :
    gatePre x0 x1 x2 x3 x4 (ix2 p q) = gatePre A X B H b (ix2 i j) := by
  rw [gatePre_apply, gatePre_apply, h4]
  refine congrArg (· + _) (congrArg₂ (· + ·) (Finset.sum_congr rfl fun c _ => by rw [h0 c, h1 c])
    (Finset.sum_congr rfl fun c _ => by rw [h2 c, h3 c]))

/-- The entrywise product of two arrays. -/
def had {s : Shape} (X Y : s.Idx → EReal) : s.Idx → EReal := fun i => X i * Y i

/-- Twice the logistic function, entry by entry (the factor kept as its bit pattern). -/
def sig2 {s : Shape} (X : s.Idx → EReal) : s.Idx → EReal :=
  fun i => Ideal.ofBits .f32 0x40000000#32 * Ideal.logistic (X i)

/-- Entry (p, q) of the dense layer of blocks is entry (i, j) of the dense layer of the whole arrays when row p of
    the first block is row i of A, column q of the second is column j of W, and the bias entries agree. -/
theorem dense_entry_congr {tm k tn M N : Nat} (x0 : (⟨2, ![tm, k]⟩ : Shape).Idx → EReal)
    (x1 : (⟨2, ![k, tn]⟩ : Shape).Idx → EReal) (x2 : (⟨2, ![1, tn]⟩ : Shape).Idx → EReal)
    (A : (⟨2, ![M, k]⟩ : Shape).Idx → EReal) (W : (⟨2, ![k, N]⟩ : Shape).Idx → EReal)
    (b : (⟨2, ![1, N]⟩ : Shape).Idx → EReal) (p : Fin tm) (q : Fin tn) (i : Fin M) (j : Fin N)
    (h0 : ∀ c, x0 (ix2 p c) = A (ix2 i c)) (h1 : ∀ c, x1 (ix2 c q) = W (ix2 c j))
    (h2 : x2 (ix2 (0 : Fin 1) q) = b (ix2 (0 : Fin 1) j)) :
    dense x0 x1 x2 (ix2 p q) = dense A W b (ix2 i j) := by
  rw [dense_apply, dense_apply, h2]
  exact congrArg (· + _) (Finset.sum_congr rfl fun c _ => by rw [h0 c, h1 c])

/-- The bit pattern of one. -/
theorem ofBits_one : Ideal.ofBits .f32 0x3F800000#32 = 1 := by
  simp [Ideal.ofBits, Ideal.ieee, -EReal.coe_mul]; norm_num

/-- The host's expansion of the sigmoid, 1 / (1 + exp (-x)) with both ones broadcast scalars, is the logistic
    function at every entry. -/
theorem hostSigmoid {s : Shape} (X : FVec Ideal s .f32) (h : (⟨0, ![]⟩ : Shape).BroadcastsInDim s ![]) :
    Host.divf (broadcastInDim s ![] h (constant (F := Ideal) ⟨0, ![]⟩ .f32 0x3F800000#32))
        (addf (broadcastInDim s ![] h (constant (F := Ideal) ⟨0, ![]⟩ .f32 0x3F800000#32)) (Host.exp (Host.negf X)))
      = logistic X := by
  funext i
  show FloatOps.hostDivf (broadcastInDim s ![] h (constant (F := Ideal) ⟨0, ![]⟩ .f32 0x3F800000#32) i)
      (FloatOps.addf (broadcastInDim s ![] h (constant (F := Ideal) ⟨0, ![]⟩ .f32 0x3F800000#32) i)
        (FloatOps.hostUnary .exp (FloatOps.hostNegf (X i)))) = FloatOps.logistic (X i)
  rw [Cert.LibHostBroadcast.bcast_scalar_apply]
  show FloatOps.hostDivf (Ideal.ofBits .f32 0x3F800000#32) (FloatOps.addf (Ideal.ofBits .f32 0x3F800000#32) _) = _
  rw [ofBits_one]; rfl

/-- The host's doubled sigmoid: the scalar two broadcast, times the expansion of the sigmoid. -/
theorem hostSig2 {s : Shape} (X : FVec Ideal s .f32) (h : (⟨0, ![]⟩ : Shape).BroadcastsInDim s ![]) :
    mulf (broadcastInDim s ![] h (constant (F := Ideal) ⟨0, ![]⟩ .f32 0x40000000#32))
        (Host.divf (broadcastInDim s ![] h (constant (F := Ideal) ⟨0, ![]⟩ .f32 0x3F800000#32))
          (addf (broadcastInDim s ![] h (constant (F := Ideal) ⟨0, ![]⟩ .f32 0x3F800000#32)) (Host.exp (Host.negf X))))
      = sig2 X := by
  rw [hostSigmoid]
  funext i
  show FloatOps.mulf (broadcastInDim s ![] h (constant (F := Ideal) ⟨0, ![]⟩ .f32 0x40000000#32) i) (FloatOps.logistic (X i)) = _
  rw [Cert.LibHostBroadcast.bcast_scalar_apply]; rfl

/-- A kernel's doubled sigmoid: the scalar two splat, times the logistic operation. -/
theorem kernelSig2 {s : Shape} (X : FVec Ideal s .f32) :
    mulf (broadcast s (Scalar.ofBits (F := Ideal) .f32 0x40000000#32)) (logistic X) = sig2 X := rfl

/-- A dense layer whose bias row is zero is the product. -/
theorem dense_zero {m k n : Nat} (A : (⟨2, ![m, k]⟩ : Shape).Idx → EReal) (W : (⟨2, ![k, n]⟩ : Shape).Idx → EReal)
    (z : (⟨2, ![1, n]⟩ : Shape).Idx → EReal) (hz : ∀ i, z i = 0) : dense A W z = mm A W := by
  funext i
  show mm A W i + z _ = _
  rw [hz, add_zero]

end Cert.LibDense

end
-- ==== Proof.LibLstmCell.lean ====
/-
  One step of an LSTM cell, entry by entry, over the extended reals.

  With x and h arrays of m rows, a gate's pre-activation at row p and unit j is
      (sum over c of x(p, c) * U(c, j)) + (sum over c of h(p, c) * V(c, j)) + b(j),
  for weight arrays U, V of shape [k, n] (the layer's weights with the unit on the second axis) and a bias row b of
  shape [1, n]. The new cell state is  sigma(f) * c0 + sigma(i) * tanh(g)  and the new hidden state
  sigma(o) * tanh(new cell state), where i, f, o, g are the four gates' pre-activations and sigma is the logistic
  function. Both are stated for any number of rows, so that a block of rows and the whole batch are instances of one
  definition: entry (p, j) depends on row p of x, h and c0 only.
-/
import proofs.«152714_j31602369364394_2_alg».proof.Proof.LibDense

noncomputable section

namespace Cert.Lstm

open Idealize.ShloMosaic Idealize.ShloMosaic.ValueIdx Cert.LibDense

/-- A weight array stored with the unit on the first axis, read with the unit on the second. -/
def unitsLast {n k : Nat} (W : (⟨2, ![n, k]⟩ : Shape).Idx → EReal) : (⟨2, ![k, n]⟩ : Shape).Idx → EReal :=
  fun i => W (ix2 (i 1) (i 0))

/-- A bias vector as an array of one row. -/
def asRow {n : Nat} (b : (⟨1, ![n]⟩ : Shape).Idx → EReal) : (⟨2, ![1, n]⟩ : Shape).Idx → EReal :=
  fun i => b (ix1 (i 1))

/-- The new cell state: the forget gate times the old state plus the input gate times the candidate. -/
def cellT {m k n : Nat} (x h : (⟨2, ![m, k]⟩ : Shape).Idx → EReal) (c0 : (⟨2, ![m, n]⟩ : Shape).Idx → EReal)
    (Ui Uf Ug Vi Vf Vg : (⟨2, ![k, n]⟩ : Shape).Idx → EReal) (bi bf bg : (⟨2, ![1, n]⟩ : Shape).Idx → EReal) :
    (⟨2, ![m, n]⟩ : Shape).Idx → EReal :=
  fun j => Ideal.logistic (gatePre x Uf h Vf bf j) * c0 j
    + Ideal.logistic (gatePre x Ui h Vi bi j) * Ideal.tanh (gatePre x Ug h Vg bg j)

/-- The new hidden state: the output gate times the hyperbolic tangent of the new cell state. -/
def hiddenT {m k n : Nat} (x h : (⟨2, ![m, k]⟩ : Shape).Idx → EReal) (c0 : (⟨2, ![m, n]⟩ : Shape).Idx → EReal)
    (Ui Uf Uo Ug Vi Vf Vo Vg : (⟨2, ![k, n]⟩ : Shape).Idx → EReal) (bi bf bo bg : (⟨2, ![1, n]⟩ : Shape).Idx → EReal) :
    (⟨2, ![m, n]⟩ : Shape).Idx → EReal :=
  fun j => Ideal.logistic (gatePre x Uo h Vo bo j) * Ideal.tanh (cellT x h c0 Ui Uf Ug Vi Vf Vg bi bf bg j)

/-- Entry (p, q) of the cell state of a block of rows is entry (i, q) of the cell state of the whole batch when row p
    of each block is row i of the whole array; the weights and bias rows are shared. -/
theorem cellT_rows {tm M k n : Nat} (x h : (⟨2, ![tm, k]⟩ : Shape).Idx → EReal) (c0 : (⟨2, ![tm, n]⟩ : Shape).Idx → EReal)
    (X H : (⟨2, ![M, k]⟩ : Shape).Idx → EReal) (C0 : (⟨2, ![M, n]⟩ : Shape).Idx → EReal)
    (Ui Uf Ug Vi Vf Vg : (⟨2, ![k, n]⟩ : Shape).Idx → EReal) (bi bf bg : (⟨2, ![1, n]⟩ : Shape).Idx → EReal)
    (p : Fin tm) (i : Fin M) (q : Fin n)
    (hx : ∀ c, x (ix2 p c) = X (ix2 i c)) (hh : ∀ c, h (ix2 p c) = H (ix2 i c)) (hc : c0 (ix2 p q) = C0 (ix2 i q)) :
    cellT x h c0 Ui Uf Ug Vi Vf Vg bi bf bg (ix2 p q) = cellT X H C0 Ui Uf Ug Vi Vf Vg bi bf bg (ix2 i q) := by
  unfold cellT
  rw [gatePre_entry_congr x Uf h Vf bf X Uf H Vf bf p q i q hx (fun _ => rfl) hh (fun _ => rfl) rfl,
    gatePre_entry_congr x Ui h Vi bi X Ui H Vi bi p q i q hx (fun _ => rfl) hh (fun _ => rfl) rfl,
    gatePre_entry_congr x Ug h Vg bg X Ug H Vg bg p q i q hx (fun _ => rfl) hh (fun _ => rfl) rfl, hc]

/-- The same for the hidden state. -/
theorem hiddenT_rows {tm M k n : Nat} (x h : (⟨2, ![tm, k]⟩ : Shape).Idx → EReal) (c0 : (⟨2, ![tm, n]⟩ : Shape).Idx → EReal)
    (X H : (⟨2, ![M, k]⟩ : Shape).Idx → EReal) (C0 : (⟨2, ![M, n]⟩ : Shape).Idx → EReal)
    (Ui Uf Uo Ug Vi Vf Vo Vg : (⟨2, ![k, n]⟩ : Shape).Idx → EReal) (bi bf bo bg : (⟨2, ![1, n]⟩ : Shape).Idx → EReal)
    (p : Fin tm) (i : Fin M) (q : Fin n)
    (hx : ∀ c, x (ix2 p c) = X (ix2 i c)) (hh : ∀ c, h (ix2 p c) = H (ix2 i c)) (hc : c0 (ix2 p q) = C0 (ix2 i q)) :
    hiddenT x h c0 Ui Uf Uo Ug Vi Vf Vo Vg bi bf bo bg (ix2 p q)
      = hiddenT X H C0 Ui Uf Uo Ug Vi Vf Vo Vg bi bf bo bg (ix2 i q) := by
  unfold hiddenT
  rw [gatePre_entry_congr x Uo h Vo bo X Uo H Vo bo p q i q hx (fun _ => rfl) hh (fun _ => rfl) rfl,
    cellT_rows x h c0 X H C0 Ui Uf Ug Vi Vf Vg bi bf bg p i q hx hh hc]

/-- `cellT_rows` with the two entries given as indices. -/
theorem cellT_rows_idx {tm M k n : Nat} (x h : (⟨2, ![tm, k]⟩ : Shape).Idx → EReal) (c0 : (⟨2, ![tm, n]⟩ : Shape).Idx → EReal)
    (X H : (⟨2, ![M, k]⟩ : Shape).Idx → EReal) (C0 : (⟨2, ![M, n]⟩ : Shape).Idx → EReal)
    (Ui Uf Ug Vi Vf Vg : (⟨2, ![k, n]⟩ : Shape).Idx → EReal) (bi bf bg : (⟨2, ![1, n]⟩ : Shape).Idx → EReal)
    (j : (⟨2, ![tm, n]⟩ : Shape).Idx) (J : (⟨2, ![M, n]⟩ : Shape).Idx) (p : Fin tm) (i : Fin M) (q : Fin n)
    (hj : j = ix2 p q) (hJ : J = ix2 i q)
    (hx : ∀ c, x (ix2 p c) = X (ix2 i c)) (hh : ∀ c, h (ix2 p c) = H (ix2 i c)) (hc : c0 (ix2 p q) = C0 (ix2 i q)) :
    cellT x h c0 Ui Uf Ug Vi Vf Vg bi bf bg j = cellT X H C0 Ui Uf Ug Vi Vf Vg bi bf bg J := by
  subst hj hJ
  exact cellT_rows x h c0 X H C0 Ui Uf Ug Vi Vf Vg bi bf bg p i q hx hh hc

/-- `hiddenT_rows` with the two entries given as indices. -/
theorem hiddenT_rows_idx {tm M k n : Nat} (x h : (⟨2, ![tm, k]⟩ : Shape).Idx → EReal) (c0 : (⟨2, ![tm, n]⟩ : Shape).Idx → EReal)
    (X H : (⟨2, ![M, k]⟩ : Shape).Idx → EReal) (C0 : (⟨2, ![M, n]⟩ : Shape).Idx → EReal)
    (Ui Uf Uo Ug Vi Vf Vo Vg : (⟨2, ![k, n]⟩ : Shape).Idx → EReal) (bi bf bo bg : (⟨2, ![1, n]⟩ : Shape).Idx → EReal)
    (j : (⟨2, ![tm, n]⟩ : Shape).Idx) (J : (⟨2, ![M, n]⟩ : Shape).Idx) (p : Fin tm) (i : Fin M) (q : Fin n)
    (hj : j = ix2 p q) (hJ : J = ix2 i q)
    (hx : ∀ c, x (ix2 p c) = X (ix2 i c)) (hh : ∀ c, h (ix2 p c) = H (ix2 i c)) (hc : c0 (ix2 p q) = C0 (ix2 i q)) :
    hiddenT x h c0 Ui Uf Uo Ug Vi Vf Vo Vg bi bf bo bg j = hiddenT X H C0 Ui Uf Uo Ug Vi Vf Vo Vg bi bf bo bg J := by
  subst hj hJ
  exact hiddenT_rows x h c0 X H C0 Ui Uf Uo Ug Vi Vf Vo Vg bi bf bo bg p i q hx hh hc

end Cert.Lstm

end
-- ==== Proof.CellBlock.lean ====
/-
  What the kernel body leaves in its two output blocks, as the LSTM step of the loaded blocks.

  The body loads a block of 256 rows of x, h and c0, the eight weight arrays whole (already laid out [k, n]) and the
  four bias rows, and stores two blocks. Changes of float format are the identity on the extended reals, a shape cast
  to the same shape is the identity, and each gate is two products into zero accumulators, added, plus the bias row
  broadcast down the rows. So the stored blocks are the cell state and the hidden state of the loaded rows.
-/
import proofs.«152714_j31602369364394_2_alg».proof.Proof.Gen.KernelIdeal.Frame
import proofs.«152714_j31602369364394_2_alg».proof.Proof.LibLstmCell
import Idealize.ShloMosaic.Lib.Pipeline.Value
import Idealize.ShloMosaic.Lib.ValueIdx

noncomputable section

namespace Cert.Lstm

open Idealize.ShloMosaic Idealize.ShloMosaic.ValueIdx Cert.KernelIdeal Cert.KernelIdeal.Gen Cert.LibDense

theorem zeroOffsets : (![0, 0] : Fin 2 → Nat) = fun _ => 0 := funext fun a => by fin_cases a <;> rfl

/-- A gate of a block before its activation, with the printed product record. -/
theorem gate_block (x h : FVec Ideal S256x1024 .bf16) (u v : FVec Ideal S1024x1024 .bf16) (b : FVec Ideal S1x1024 .f32) :
    addf (addf (matmul dot_S256x1024_S1024x1024_S256x1024_1_0_0_1_n_n none x u (constant (F := Ideal) S256x1024 .f32 0x00000000#32))
            (matmul dot_S256x1024_S1024x1024_S256x1024_1_0_0_1_n_n none h v (constant (F := Ideal) S256x1024 .f32 0x00000000#32)))
        (broadcastTo S256x1024 b broadcasts_S1x1024_S256x1024)
      = gatePre x u h v b :=
  kernelGatePre x u h v b broadcasts_S1x1024_S256x1024

/-- The input gate of a block. -/
theorem inputGate_block (x0 x1 : Vec Ideal S256x1024 .f32) (x3 x7 : Vec Ideal S1024x1024 .bf16) (x11 : Vec Ideal S1x1024 .f32) :
    k0_pay5 (F := Ideal) x0 x1 x3 x7 x11 = logistic (F := Ideal) (φ := .f32) (gatePre x0 x3 x1 x7 x11) := by
  unfold k0_pay5 k0_pay3 k0_pay4
  simp only [shapeCast_self]
  rw [gate_block]
  rfl

/-- The forget gate of a block. -/
theorem forgetGate_block (x0 x1 : Vec Ideal S256x1024 .f32) (x4 x8 : Vec Ideal S1024x1024 .bf16) (x12 : Vec Ideal S1x1024 .f32) :
    k0_pay6 (F := Ideal) x0 x1 x4 x8 x12 = logistic (F := Ideal) (φ := .f32) (gatePre x0 x4 x1 x8 x12) := by
  unfold k0_pay6 k0_pay3 k0_pay4
  simp only [shapeCast_self]
  rw [gate_block]
  rfl

/-- The block stored into the second output is the cell state of the loaded rows. -/
theorem cell_block (x0 x1 x2 : Vec Ideal S256x1024 .f32) (x3 x4 x5 x6 x7 x8 x9 x10 : Vec Ideal S1024x1024 .bf16)
    (x11 x12 x13 x14 : Vec Ideal S1x1024 .f32) :
    out0_16 (F := Ideal) x0 x1 x2 x3 x4 x5 x6 x7 x8 x9 x10 x11 x12 x13 x14
      = cellT x0 x1 x2 x3 x4 x6 x7 x8 x10 x11 x12 x14 := by
  unfold out0_16
  rw [View.canon_unit_zero zeroOffsets]
  simp only [View.ld_unit_zero (S := S256x1024) zeroOffsets, View.ld_unit_zero (S := S1024x1024) zeroOffsets,
    View.ld_unit_zero (S := S1x1024) zeroOffsets]
  rw [inputGate_block, forgetGate_block]
  unfold k0_pay1 k0_pay3 k0_pay4
  simp only [shapeCast_self]
  rw [gate_block]
  rfl

/-- The block stored into the first output is the hidden state of the loaded rows. -/
theorem hidden_block (x0 x1 x2 : Vec Ideal S256x1024 .f32) (x3 x4 x5 x6 x7 x8 x9 x10 : Vec Ideal S1024x1024 .bf16)
    (x11 x12 x13 x14 : Vec Ideal S1x1024 .f32) :
    out0_15 (F := Ideal) x0 x1 x2 x3 x4 x5 x6 x7 x8 x9 x10 x11 x12 x13 x14
      = hiddenT x0 x1 x2 x3 x4 x5 x6 x7 x8 x9 x10 x11 x12 x13 x14 := by
  unfold out0_15
  rw [View.canon_unit_zero zeroOffsets]
  simp only [View.ld_unit_zero (S := S256x1024) zeroOffsets, View.ld_unit_zero (S := S1024x1024) zeroOffsets,
    View.ld_unit_zero (S := S1x1024) zeroOffsets]
  have hc := cell_block x0 x1 x2 x3 x4 x5 x6 x7 x8 x9 x10 x11 x12 x13 x14
  unfold out0_16 at hc
  rw [View.canon_unit_zero zeroOffsets] at hc
  simp only [View.ld_unit_zero (S := S256x1024) zeroOffsets, View.ld_unit_zero (S := S1024x1024) zeroOffsets,
    View.ld_unit_zero (S := S1x1024) zeroOffsets] at hc
  unfold k0_pay2
  rw [hc]
  unfold k0_pay7 k0_pay3 k0_pay4
  simp only [shapeCast_self]
  rw [gate_block]
  rfl

end Cert.Lstm

end
-- ==== Proof.CellArray.lean ====
/-
  From blocks to arrays: the two result arrays of the kernel's run as the LSTM step of the arrays the region finds.

  The grid has 16 points; point t stages rows 256 t .. 256 t + 255 of x, h and c0, the weight arrays and bias rows
  whole, and writes back rows 256 t .. 256 t + 255 of the two results. Entry (p, q) of what a point writes is the
  step of row p of its blocks, which is row 256 t + p of the whole arrays; the 16 row blocks cover the results.
-/
import proofs.«152714_j31602369364394_2_alg».proof.Proof.Gen.KernelIdeal.Value
import proofs.«152714_j31602369364394_2_alg».proof.Proof.CellBlock
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.Lstm

open Idealize.ShloMosaic.ValueIdx Cert.KernelIdeal Cert.KernelIdeal.Gen Cert.LibDense

variable (m : (ℓ : Loc nD τ sig) → Buf (Elt Ideal) ℓ) (ρ : Dev nD → PrngReg)

/-! ## The printed index maps over the grid -/

/-- Window 0's block index at point t is (t, 0): a block of rows. -/
theorem rowsIdx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
/-- Window 1's block index at point t is (t, 0): a block of rows. -/
theorem rowsIdx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
/-- Window 2's block index at point t is (t, 0): a block of rows. -/
theorem rowsIdx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
/-- Window 15's block index at point t is (t, 0): a block of rows. -/
theorem rowsIdx15 : ∀ t : Fin cfg0.N, win0_15.index t (0 : Fin 2) = t.val ∧ win0_15.index t (1 : Fin 2) = 0 :=
  (by decide +kernel : ∀ t : Fin grid0.N, win0_15.index t (0 : Fin 2) = t.val ∧ win0_15.index t (1 : Fin 2) = 0)
/-- Window 16's block index at point t is (t, 0): a block of rows. -/
theorem rowsIdx16 : ∀ t : Fin cfg0.N, win0_16.index t (0 : Fin 2) = t.val ∧ win0_16.index t (1 : Fin 2) = 0 :=
  (by decide +kernel : ∀ t : Fin grid0.N, win0_16.index t (0 : Fin 2) = t.val ∧ win0_16.index t (1 : Fin 2) = 0)
/-- Window 3's block index is (0, 0) at every point: the whole array. -/
theorem wholeIdx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
/-- Window 4's block index is (0, 0) at every point: the whole array. -/
theorem wholeIdx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
/-- Window 5's block index is (0, 0) at every point: the whole array. -/
theorem wholeIdx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
/-- Window 6's block index is (0, 0) at every point: the whole array. -/
theorem wholeIdx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
/-- Window 7's block index is (0, 0) at every point: the whole array. -/
theorem wholeIdx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
/-- Window 8's block index is (0, 0) at every point: the whole array. -/
theorem wholeIdx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
/-- Window 9's block index is (0, 0) at every point: the whole array. -/
theorem wholeIdx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
/-- Window 10's block index is (0, 0) at every point: the whole array. -/
theorem wholeIdx10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
/-- Window 11's block index is (0, 0) at every point: the whole array. -/
theorem wholeIdx11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)
/-- Window 12's block index is (0, 0) at every point: the whole array. -/
theorem wholeIdx12 : ∀ t : Fin cfg0.N, win0_12.index t (0 : Fin 2) = 0 ∧ win0_12.index t (1 : Fin 2) = 0 :=
  (by decide +kernel : ∀ t : Fin grid0.N, win0_12.index t (0 : Fin 2) = 0 ∧ win0_12.index t (1 : Fin 2) = 0)
/-- Window 13's block index is (0, 0) at every point: the whole array. -/
theorem wholeIdx13 : ∀ t : Fin cfg0.N, win0_13.index t (0 : Fin 2) = 0 ∧ win0_13.index t (1 : Fin 2) = 0 :=
  (by decide +kernel : ∀ t : Fin grid0.N, win0_13.index t (0 : Fin 2) = 0 ∧ win0_13.index t (1 : Fin 2) = 0)
/-- Window 14's block index is (0, 0) at every point: the whole array. -/
theorem wholeIdx14 : ∀ t : Fin cfg0.N, win0_14.index t (0 : Fin 2) = 0 ∧ win0_14.index t (1 : Fin 2) = 0 :=
  (by decide +kernel : ∀ t : Fin grid0.N, win0_14.index t (0 : Fin 2) = 0 ∧ win0_14.index t (1 : Fin 2) = 0)

/-! ## The input blocks as rows of the arrays -/

/-- Input window 0's block at point t is rows 256 t .. 256 t + 255 of its array. -/
theorem rows0_apply (c : Dev nD) (t : Fin cfg0.N) (y : S256x1024.Idx) (k : S4096x1024.Idx)
    (hk0 : (k 0).val = 256 * t.val + (y 0).val) (hk1 : (k 1).val = (y 1).val) :
    (iblk m c 0 t : Vec Ideal S256x1024 .f32) y = (V m c main_arg0 : S4096x1024.Idx → Elt Ideal .f32) k := by
  obtain ⟨e0, e1⟩ := rowsIdx0 t
  unfold iblk
  rw [View.read_apply]
  show V m c main_arg0 _ = V m c main_arg0 _
  congr 1
  funext a
  apply Fin.ext
  match a with
  | ⟨0, _⟩ => show win0_0.index t (0 : Fin 2) * 256 + 1 * (y 0).val = (k 0).val; rw [e0, hk0]; omega
  | ⟨1, _⟩ => show win0_0.index t (1 : Fin 2) * 1024 + 1 * (y 1).val = (k 1).val; rw [e1, hk1]; omega

/-- Input window 1's block at point t is rows 256 t .. 256 t + 255 of its array. -/
theorem rows1_apply (c : Dev nD) (t : Fin cfg0.N) (y : S256x1024.Idx) (k : S4096x1024.Idx)
    (hk0 : (k 0).val = 256 * t.val + (y 0).val) (hk1 : (k 1).val = (y 1).val) :
    (iblk m c 1 t : Vec Ideal S256x1024 .f32) y = (V m c main_arg1 : S4096x1024.Idx → Elt Ideal .f32) k := by
  obtain ⟨e0, e1⟩ := rowsIdx1 t
  unfold iblk
  rw [View.read_apply]
  show V m c main_arg1 _ = V m c main_arg1 _
  congr 1
  funext a
  apply Fin.ext
  match a with
  | ⟨0, _⟩ => show win0_1.index t (0 : Fin 2) * 256 + 1 * (y 0).val = (k 0).val; rw [e0, hk0]; omega
  | ⟨1, _⟩ => show win0_1.index t (1 : Fin 2) * 1024 + 1 * (y 1).val = (k 1).val; rw [e1, hk1]; omega

/-- Input window 2's block at point t is rows 256 t .. 256 t + 255 of its array. -/
theorem rows2_apply (c : Dev nD) (t : Fin cfg0.N) (y : S256x1024.Idx) (k : S4096x1024.Idx)
    (hk0 : (k 0).val = 256 * t.val + (y 0).val) (hk1 : (k 1).val = (y 1).val) :
    (iblk m c 2 t : Vec Ideal S256x1024 .f32) y = (V m c main_arg2 : S4096x1024.Idx → Elt Ideal .f32) k := by
  obtain ⟨e0, e1⟩ := rowsIdx2 t
  unfold iblk
  rw [View.read_apply]
  show V m c main_arg2 _ = V m c main_arg2 _
  congr 1
  funext a
  apply Fin.ext
  match a with
  | ⟨0, _⟩ => show win0_2.index t (0 : Fin 2) * 256 + 1 * (y 0).val = (k 0).val; rw [e0, hk0]; omega
  | ⟨1, _⟩ => show win0_2.index t (1 : Fin 2) * 1024 + 1 * (y 1).val = (k 1).val; rw [e1, hk1]; omega

/-- Input window 3's block at every point is its whole array. -/
theorem whole3 (c : Dev nD) (t : Fin cfg0.N) :
    (iblk m c 3 t : Vec Ideal S1024x1024 .bf16) = (V m c main_v1 : S1024x1024.Idx → Elt Ideal .bf16) := by
  obtain ⟨e0, e1⟩ := wholeIdx3 t
  funext y
  unfold iblk
  rw [View.read_apply]
  show V m c main_v1 _ = V m c main_v1 _
  congr 1
  funext a
  apply Fin.ext
  match a with
  | ⟨0, _⟩ => show win0_3.index t (0 : Fin 2) * 1024 + 1 * (y 0).val = (y 0).val; rw [e0]; omega
  | ⟨1, _⟩ => show win0_3.index t (1 : Fin 2) * 1024 + 1 * (y 1).val = (y 1).val; rw [e1]; omega

/-- Input window 4's block at every point is its whole array. -/
theorem whole4 (c : Dev nD) (t : Fin cfg0.N) :
    (iblk m c 4 t : Vec Ideal S1024x1024 .bf16) = (V m c main_v3 : S1024x1024.Idx → Elt Ideal .bf16) := by
  obtain ⟨e0, e1⟩ := wholeIdx4 t
  funext y
  unfold iblk
  rw [View.read_apply]
  show V m c main_v3 _ = V m c main_v3 _
  congr 1
  funext a
  apply Fin.ext
  match a with
  | ⟨0, _⟩ => show win0_4.index t (0 : Fin 2) * 1024 + 1 * (y 0).val = (y 0).val; rw [e0]; omega
  | ⟨1, _⟩ => show win0_4.index t (1 : Fin 2) * 1024 + 1 * (y 1).val = (y 1).val; rw [e1]; omega

/-- Input window 5's block at every point is its whole array. -/
theorem whole5 (c : Dev nD) (t : Fin cfg0.N) :
    (iblk m c 5 t : Vec Ideal S1024x1024 .bf16) = (V m c main_v5 : S1024x1024.Idx → Elt Ideal .bf16) := by
  obtain ⟨e0, e1⟩ := wholeIdx5 t
  funext y
  unfold iblk
  rw [View.read_apply]
  show V m c main_v5 _ = V m c main_v5 _
  congr 1
  funext a
  apply Fin.ext
  match a with
  | ⟨0, _⟩ => show win0_5.index t (0 : Fin 2) * 1024 + 1 * (y 0).val = (y 0).val; rw [e0]; omega
  | ⟨1, _⟩ => show win0_5.index t (1 : Fin 2) * 1024 + 1 * (y 1).val = (y 1).val; rw [e1]; omega

/-- Input window 6's block at every point is its whole array. -/
theorem whole6 (c : Dev nD) (t : Fin cfg0.N) :
    (iblk m c 6 t : Vec Ideal S1024x1024 .bf16) = (V m c main_v7 : S1024x1024.Idx → Elt Ideal .bf16) := by
  obtain ⟨e0, e1⟩ := wholeIdx6 t
  funext y
  unfold iblk
  rw [View.read_apply]
  show V m c main_v7 _ = V m c main_v7 _
  congr 1
  funext a
  apply Fin.ext
  match a with
  | ⟨0, _⟩ => show win0_6.index t (0 : Fin 2) * 1024 + 1 * (y 0).val = (y 0).val; rw [e0]; omega
  | ⟨1, _⟩ => show win0_6.index t (1 : Fin 2) * 1024 + 1 * (y 1).val = (y 1).val; rw [e1]; omega

/-- Input window 7's block at every point is its whole array. -/
theorem whole7 (c : Dev nD) (t : Fin cfg0.N) :
    (iblk m c 7 t : Vec Ideal S1024x1024 .bf16) = (V m c main_v9 : S1024x1024.Idx → Elt Ideal .bf16) := by
  obtain ⟨e0, e1⟩ := wholeIdx7 t
  funext y
  unfold iblk
  rw [View.read_apply]
  show V m c main_v9 _ = V m c main_v9 _
  congr 1
  funext a
  apply Fin.ext
  match a with
  | ⟨0, _⟩ => show win0_7.index t (0 : Fin 2) * 1024 + 1 * (y 0).val = (y 0).val; rw [e0]; omega
  | ⟨1, _⟩ => show win0_7.index t (1 : Fin 2) * 1024 + 1 * (y 1).val = (y 1).val; rw [e1]; omega

/-- Input window 8's block at every point is its whole array. -/
theorem whole8 (c : Dev nD) (t : Fin cfg0.N) :
    (iblk m c 8 t : Vec Ideal S1024x1024 .bf16) = (V m c main_v11 : S1024x1024.Idx → Elt Ideal .bf16) := by
  obtain ⟨e0, e1⟩ := wholeIdx8 t
  funext y
  unfold iblk
  rw [View.read_apply]
  show V m c main_v11 _ = V m c main_v11 _
  congr 1
  funext a
  apply Fin.ext
  match a with
  | ⟨0, _⟩ => show win0_8.index t (0 : Fin 2) * 1024 + 1 * (y 0).val = (y 0).val; rw [e0]; omega
  | ⟨1, _⟩ => show win0_8.index t (1 : Fin 2) * 1024 + 1 * (y 1).val = (y 1).val; rw [e1]; omega

/-- Input window 9's block at every point is its whole array. -/
theorem whole9 (c : Dev nD) (t : Fin cfg0.N) :
    (iblk m c 9 t : Vec Ideal S1024x1024 .bf16) = (V m c main_v13 : S1024x1024.Idx → Elt Ideal .bf16) := by
  obtain ⟨e0, e1⟩ := wholeIdx9 t
  funext y
  unfold iblk
  rw [View.read_apply]
  show V m c main_v13 _ = V m c main_v13 _
  congr 1
  funext a
  apply Fin.ext
  match a with
  | ⟨0, _⟩ => show win0_9.index t (0 : Fin 2) * 1024 + 1 * (y 0).val = (y 0).val; rw [e0]; omega
  | ⟨1, _⟩ => show win0_9.index t (1 : Fin 2) * 1024 + 1 * (y 1).val = (y 1).val; rw [e1]; omega

/-- Input window 10's block at every point is its whole array. -/
theorem whole10 (c : Dev nD) (t : Fin cfg0.N) :
    (iblk m c 10 t : Vec Ideal S1024x1024 .bf16) = (V m c main_v15 : S1024x1024.Idx → Elt Ideal .bf16) := by
  obtain ⟨e0, e1⟩ := wholeIdx10 t
  funext y
  unfold iblk
  rw [View.read_apply]
  show V m c main_v15 _ = V m c main_v15 _
  congr 1
  funext a
  apply Fin.ext
  match a with
  | ⟨0, _⟩ => show win0_10.index t (0 : Fin 2) * 1024 + 1 * (y 0).val = (y 0).val; rw [e0]; omega
  | ⟨1, _⟩ => show win0_10.index t (1 : Fin 2) * 1024 + 1 * (y 1).val = (y 1).val; rw [e1]; omega

/-- Input window 11's block at every point is its whole array. -/
theorem whole11 (c : Dev nD) (t : Fin cfg0.N) :
    (iblk m c 11 t : Vec Ideal S1x1024 .f32) = (V m c main_v16 : S1x1024.Idx → Elt Ideal .f32) := by
  obtain ⟨e0, e1⟩ := wholeIdx11 t
  funext y
  unfold iblk
  rw [View.read_apply]
  show V m c main_v16 _ = V m c main_v16 _
  congr 1
  funext a
  apply Fin.ext
  match a with
  | ⟨0, _⟩ => show win0_11.index t (0 : Fin 2) * 1 + 1 * (y 0).val = (y 0).val; rw [e0]; omega
  | ⟨1, _⟩ => show win0_11.index t (1 : Fin 2) * 1024 + 1 * (y 1).val = (y 1).val; rw [e1]; omega

/-- Input window 12's block at every point is its whole array. -/
theorem whole12 (c : Dev nD) (t : Fin cfg0.N) :
    (iblk m c 12 t : Vec Ideal S1x1024 .f32) = (V m c main_v17 : S1x1024.Idx → Elt Ideal .f32) := by
  obtain ⟨e0, e1⟩ := wholeIdx12 t
  funext y
  unfold iblk
  rw [View.read_apply]
  show V m c main_v17 _ = V m c main_v17 _
  congr 1
  funext a
  apply Fin.ext
  match a with
  | ⟨0, _⟩ => show win0_12.index t (0 : Fin 2) * 1 + 1 * (y 0).val = (y 0).val; rw [e0]; omega
  | ⟨1, _⟩ => show win0_12.index t (1 : Fin 2) * 1024 + 1 * (y 1).val = (y 1).val; rw [e1]; omega

/-- Input window 13's block at every point is its whole array. -/
theorem whole13 (c : Dev nD) (t : Fin cfg0.N) :
    (iblk m c 13 t : Vec Ideal S1x1024 .f32) = (V m c main_v18 : S1x1024.Idx → Elt Ideal .f32) := by
  obtain ⟨e0, e1⟩ := wholeIdx13 t
  funext y
  unfold iblk
  rw [View.read_apply]
  show V m c main_v18 _ = V m c main_v18 _
  congr 1
  funext a
  apply Fin.ext
  match a with
  | ⟨0, _⟩ => show win0_13.index t (0 : Fin 2) * 1 + 1 * (y 0).val = (y 0).val; rw [e0]; omega
  | ⟨1, _⟩ => show win0_13.index t (1 : Fin 2) * 1024 + 1 * (y 1).val = (y 1).val; rw [e1]; omega

/-- Input window 14's block at every point is its whole array. -/
theorem whole14 (c : Dev nD) (t : Fin cfg0.N) :
    (iblk m c 14 t : Vec Ideal S1x1024 .f32) = (V m c main_v19 : S1x1024.Idx → Elt Ideal .f32) := by
  obtain ⟨e0, e1⟩ := wholeIdx14 t
  funext y
  unfold iblk
  rw [View.read_apply]
  show V m c main_v19 _ = V m c main_v19 _
  congr 1
  funext a
  apply Fin.ext
  match a with
  | ⟨0, _⟩ => show win0_14.index t (0 : Fin 2) * 1 + 1 * (y 0).val = (y 0).val; rw [e0]; omega
  | ⟨1, _⟩ => show win0_14.index t (1 : Fin 2) * 1024 + 1 * (y 1).val = (y 1).val; rw [e1]; omega

/-! ## The result arrays -/

/-- The cell state of the whole batch, from the arrays as the region finds them. -/
abbrev cellV (c : Dev nD) : S4096x1024.Idx → EReal :=
  cellT (V m c main_arg0 : S4096x1024.Idx → Elt Ideal .f32) (V m c main_arg1 : S4096x1024.Idx → Elt Ideal .f32) (V m c main_arg2 : S4096x1024.Idx → Elt Ideal .f32)
      (V m c main_v1 : S1024x1024.Idx → Elt Ideal .bf16) (V m c main_v3 : S1024x1024.Idx → Elt Ideal .bf16) (V m c main_v7 : S1024x1024.Idx → Elt Ideal .bf16)
      (V m c main_v9 : S1024x1024.Idx → Elt Ideal .bf16) (V m c main_v11 : S1024x1024.Idx → Elt Ideal .bf16) (V m c main_v15 : S1024x1024.Idx → Elt Ideal .bf16)
      (V m c main_v16 : S1x1024.Idx → Elt Ideal .f32) (V m c main_v17 : S1x1024.Idx → Elt Ideal .f32) (V m c main_v19 : S1x1024.Idx → Elt Ideal .f32)

/-- The hidden state of the whole batch, from the arrays as the region finds them. -/
abbrev hiddenV (c : Dev nD) : S4096x1024.Idx → EReal :=
  hiddenT (V m c main_arg0 : S4096x1024.Idx → Elt Ideal .f32) (V m c main_arg1 : S4096x1024.Idx → Elt Ideal .f32) (V m c main_arg2 : S4096x1024.Idx → Elt Ideal .f32)
      (V m c main_v1 : S1024x1024.Idx → Elt Ideal .bf16) (V m c main_v3 : S1024x1024.Idx → Elt Ideal .bf16) (V m c main_v5 : S1024x1024.Idx → Elt Ideal .bf16) (V m c main_v7 : S1024x1024.Idx → Elt Ideal .bf16)
      (V m c main_v9 : S1024x1024.Idx → Elt Ideal .bf16) (V m c main_v11 : S1024x1024.Idx → Elt Ideal .bf16) (V m c main_v13 : S1024x1024.Idx → Elt Ideal .bf16) (V m c main_v15 : S1024x1024.Idx → Elt Ideal .bf16)
      (V m c main_v16 : S1x1024.Idx → Elt Ideal .f32) (V m c main_v17 : S1x1024.Idx → Elt Ideal .f32) (V m c main_v18 : S1x1024.Idx → Elt Ideal .f32) (V m c main_v19 : S1x1024.Idx → Elt Ideal .f32)

/-- What point t writes back to the second result is block t of the whole batch's cell state. -/
theorem flushedCell (c : Dev nD) (t : Fin cfg0.N) :
    (dats m 0 c).flushed 16 t = ((cfg0.win 16).blk t).view.read (Elt Ideal) (cellV m c) := by
  rw [Value.flushed16 m c t,
    cell_block (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t),
    whole3 m c t, whole4 m c t, whole6 m c t, whole7 m c t, whole8 m c t, whole10 m c t, whole11 m c t, whole12 m c t, whole14 m c t]
  obtain ⟨e0, e1⟩ := rowsIdx16 t
  funext j
  show cellT (iblk m c 0 t) (iblk m c 1 t) (iblk m c 2 t) _ _ _ _ _ _ _ _ _ j = cellV m c (((cfg0.win 16).blk t).view.emb j)
  have hp : (j 0).val < 256 := (j 0).isLt
  have hq : (j 1).val < 1024 := (j 1).isLt
  have ht : t.val < 16 := lt_of_lt_of_eq t.isLt N_0
  refine cellT_rows_idx (iblk m c 0 t) (iblk m c 1 t) (iblk m c 2 t) (V m c main_arg0 : S4096x1024.Idx → Elt Ideal .f32) (V m c main_arg1 : S4096x1024.Idx → Elt Ideal .f32) (V m c main_arg2 : S4096x1024.Idx → Elt Ideal .f32)
      (V m c main_v1 : S1024x1024.Idx → Elt Ideal .bf16) (V m c main_v3 : S1024x1024.Idx → Elt Ideal .bf16) (V m c main_v7 : S1024x1024.Idx → Elt Ideal .bf16)
      (V m c main_v9 : S1024x1024.Idx → Elt Ideal .bf16) (V m c main_v11 : S1024x1024.Idx → Elt Ideal .bf16) (V m c main_v15 : S1024x1024.Idx → Elt Ideal .bf16)
      (V m c main_v16 : S1x1024.Idx → Elt Ideal .f32) (V m c main_v17 : S1x1024.Idx → Elt Ideal .f32) (V m c main_v19 : S1x1024.Idx → Elt Ideal .f32)
      j (((cfg0.win 16).blk t).view.emb j) ⟨(j 0).val, hp⟩ ⟨256 * t.val + (j 0).val, by omega⟩ ⟨(j 1).val, hq⟩ ?_ ?_ ?_ ?_ ?_
  · funext a
    apply Fin.ext
    match a with
    | ⟨0, _⟩ => rfl
    | ⟨1, _⟩ => rfl
  · funext a
    apply Fin.ext
    match a with
    | ⟨0, _⟩ => show win0_16.index t (0 : Fin 2) * 256 + 1 * (j 0).val = 256 * t.val + (j 0).val; rw [e0]; omega
    | ⟨1, _⟩ => show win0_16.index t (1 : Fin 2) * 1024 + 1 * (j 1).val = (j 1).val; rw [e1]; omega
  · intro k
    exact rows0_apply m c t (ix2 ⟨(j 0).val, hp⟩ k) (ix2 ⟨256 * t.val + (j 0).val, by omega⟩ k) rfl rfl
  · intro k
    exact rows1_apply m c t (ix2 ⟨(j 0).val, hp⟩ k) (ix2 ⟨256 * t.val + (j 0).val, by omega⟩ k) rfl rfl
  · exact rows2_apply m c t (ix2 ⟨(j 0).val, hp⟩ ⟨(j 1).val, hq⟩) (ix2 ⟨256 * t.val + (j 0).val, by omega⟩ ⟨(j 1).val, hq⟩) rfl rfl

/-- What point t writes back to the first result is block t of the whole batch's hidden state. -/
theorem flushedHidden (c : Dev nD) (t : Fin cfg0.N) :
    (dats m 0 c).flushed 15 t = ((cfg0.win 15).blk t).view.read (Elt Ideal) (hiddenV m c) := by
  rw [Value.flushed15 m c t,
    hidden_block (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t),
    whole3 m c t, whole4 m c t, whole5 m c t, whole6 m c t, whole7 m c t, whole8 m c t, whole9 m c t, whole10 m c t, whole11 m c t, whole12 m c t, whole13 m c t, whole14 m c t]
  obtain ⟨e0, e1⟩ := rowsIdx15 t
  funext j
  show hiddenT (iblk m c 0 t) (iblk m c 1 t) (iblk m c 2 t) _ _ _ _ _ _ _ _ _ _ _ _ j = hiddenV m c (((cfg0.win 15).blk t).view.emb j)
  have hp : (j 0).val < 256 := (j 0).isLt
  have hq : (j 1).val < 1024 := (j 1).isLt
  have ht : t.val < 16 := lt_of_lt_of_eq t.isLt N_0
  refine hiddenT_rows_idx (iblk m c 0 t) (iblk m c 1 t) (iblk m c 2 t) (V m c main_arg0 : S4096x1024.Idx → Elt Ideal .f32) (V m c main_arg1 : S4096x1024.Idx → Elt Ideal .f32) (V m c main_arg2 : S4096x1024.Idx → Elt Ideal .f32)
      (V m c main_v1 : S1024x1024.Idx → Elt Ideal .bf16) (V m c main_v3 : S1024x1024.Idx → Elt Ideal .bf16) (V m c main_v5 : S1024x1024.Idx → Elt Ideal .bf16) (V m c main_v7 : S1024x1024.Idx → Elt Ideal .bf16)
      (V m c main_v9 : S1024x1024.Idx → Elt Ideal .bf16) (V m c main_v11 : S1024x1024.Idx → Elt Ideal .bf16) (V m c main_v13 : S1024x1024.Idx → Elt Ideal .bf16) (V m c main_v15 : S1024x1024.Idx → Elt Ideal .bf16)
      (V m c main_v16 : S1x1024.Idx → Elt Ideal .f32) (V m c main_v17 : S1x1024.Idx → Elt Ideal .f32) (V m c main_v18 : S1x1024.Idx → Elt Ideal .f32) (V m c main_v19 : S1x1024.Idx → Elt Ideal .f32)
      j (((cfg0.win 15).blk t).view.emb j) ⟨(j 0).val, hp⟩ ⟨256 * t.val + (j 0).val, by omega⟩ ⟨(j 1).val, hq⟩ ?_ ?_ ?_ ?_ ?_
  · funext a
    apply Fin.ext
    match a with
    | ⟨0, _⟩ => rfl
    | ⟨1, _⟩ => rfl
  · funext a
    apply Fin.ext
    match a with
    | ⟨0, _⟩ => show win0_15.index t (0 : Fin 2) * 256 + 1 * (j 0).val = 256 * t.val + (j 0).val; rw [e0]; omega
    | ⟨1, _⟩ => show win0_15.index t (1 : Fin 2) * 1024 + 1 * (j 1).val = (j 1).val; rw [e1]; omega
  · intro k
    exact rows0_apply m c t (ix2 ⟨(j 0).val, hp⟩ k) (ix2 ⟨256 * t.val + (j 0).val, by omega⟩ k) rfl rfl
  · intro k
    exact rows1_apply m c t (ix2 ⟨(j 0).val, hp⟩ k) (ix2 ⟨256 * t.val + (j 0).val, by omega⟩ k) rfl rfl
  · exact rows2_apply m c t (ix2 ⟨(j 0).val, hp⟩ ⟨(j 1).val, hq⟩) (ix2 ⟨256 * t.val + (j 0).val, by omega⟩ ⟨(j 1).val, hq⟩) rfl rfl

/-- An index of the array is in point t's block of window 16 iff each coordinate is in the block's range. -/
theorem mem_blk16 (t : Fin cfg0.N) (i : S4096x1024.Idx) :
    i ∈ ((cfg0.win 16).blk t).view.set ↔ ∀ a : Fin 2, win0_16.index t a * S256x1024.size a ≤ (i a).val ∧ (i a).val < win0_16.index t a * S256x1024.size a + S256x1024.size a := by
  show i ∈ ((View.whole main_v20_1).slice (win0_16.rect t)).set ↔ _
  rw [View.set_slice_whole, Rect.mem_set_unit]
  exact Iff.rfl

/-- Every row of the array is in the block of the point its row number over 256 names. -/
theorem cover16 (i : S4096x1024.Idx) :
    ∃ t : Fin cfg0.N, (cfg0.win 16).flush t = true ∧ i ∈ ((cfg0.win 16).blk t).view.set := by
  have h0 : (i 0).val < 4096 := (i 0).isLt
  have h1 : (i 1).val < 1024 := (i 1).isLt
  have hN : cfg0.N = 16 := N_0
  refine ⟨⟨(i 0).val / 256, by rw [hN]; omega⟩, flush0_16 _, ?_⟩
  obtain ⟨e0, e1⟩ := rowsIdx16 ⟨(i 0).val / 256, by rw [hN]; omega⟩
  rw [mem_blk16]
  intro a
  match a with
  | ⟨0, _⟩ =>
    show win0_16.index _ (0 : Fin 2) * 256 ≤ (i 0).val ∧ (i 0).val < win0_16.index _ (0 : Fin 2) * 256 + 256
    rw [e0]; show (i 0).val / 256 * 256 ≤ (i 0).val ∧ (i 0).val < (i 0).val / 256 * 256 + 256; omega
  | ⟨1, _⟩ =>
    show win0_16.index _ (1 : Fin 2) * 1024 ≤ (i 1).val ∧ (i 1).val < win0_16.index _ (1 : Fin 2) * 1024 + 1024
    rw [e1]; omega

/-- An index of the array is in point t's block of window 15 iff each coordinate is in the block's range. -/
theorem mem_blk15 (t : Fin cfg0.N) (i : S4096x1024.Idx) :
    i ∈ ((cfg0.win 15).blk t).view.set ↔ ∀ a : Fin 2, win0_15.index t a * S256x1024.size a ≤ (i a).val ∧ (i a).val < win0_15.index t a * S256x1024.size a + S256x1024.size a := by
  show i ∈ ((View.whole main_v20_0).slice (win0_15.rect t)).set ↔ _
  rw [View.set_slice_whole, Rect.mem_set_unit]
  exact Iff.rfl

/-- Every row of the array is in the block of the point its row number over 256 names. -/
theorem cover15 (i : S4096x1024.Idx) :
    ∃ t : Fin cfg0.N, (cfg0.win 15).flush t = true ∧ i ∈ ((cfg0.win 15).blk t).view.set := by
  have h0 : (i 0).val < 4096 := (i 0).isLt
  have h1 : (i 1).val < 1024 := (i 1).isLt
  have hN : cfg0.N = 16 := N_0
  refine ⟨⟨(i 0).val / 256, by rw [hN]; omega⟩, flush0_15 _, ?_⟩
  obtain ⟨e0, e1⟩ := rowsIdx15 ⟨(i 0).val / 256, by rw [hN]; omega⟩
  rw [mem_blk15]
  intro a
  match a with
  | ⟨0, _⟩ =>
    show win0_15.index _ (0 : Fin 2) * 256 ≤ (i 0).val ∧ (i 0).val < win0_15.index _ (0 : Fin 2) * 256 + 256
    rw [e0]; show (i 0).val / 256 * 256 ≤ (i 0).val ∧ (i 0).val < (i 0).val / 256 * 256 + 256; omega
  | ⟨1, _⟩ =>
    show win0_15.index _ (1 : Fin 2) * 1024 ≤ (i 1).val ∧ (i 1).val < win0_15.index _ (1 : Fin 2) * 1024 + 1024
    rw [e1]; omega

/-- The second result array after the run is the cell state of the whole batch. -/
theorem finalCell (c : Dev nD) : (dats m 0 c).arrAt 16 cfg0.N = cellV m c :=
  (dats m 0 c).arrAt_eq_of_cover 16 (cellV m c) (fun t _ => flushedCell m c t) cover16

/-- The first result array after the run is the hidden state of the whole batch. -/
theorem finalHidden (c : Dev nD) : (dats m 0 c).arrAt 15 cfg0.N = hiddenV m c :=
  (dats m 0 c).arrAt_eq_of_cover 15 (hiddenV m c) (fun t _ => flushedHidden m c t) cover15

end Cert.Lstm

end
-- ==== Proof.Operands.lean ====
/-
  The arrays the host prepares for the kernel, from the arguments.

  Before the kernel runs, the host transposes each of the eight weight arrays (stored with the unit on the first axis)
  and narrows its float format, and reshapes each of the four bias vectors to one row. On the extended reals the change
  of format is the identity, so the kernel's weight operand at (c, j) is the argument at (j, c), and its bias operand
  at (0, j) is the argument at j.
-/
import proofs.«152714_j31602369364394_2_alg».proof.Proof.Gen.KernelIdeal.Frame
import proofs.«152714_j31602369364394_2_alg».proof.Proof.LibLstmCell
import Idealize.ShloMosaic.Lib.StableHlo.Run
import Idealize.ShloMosaic.Lib.ValueLayout
import Idealize.ShloMosaic.Lib.Pipeline.Value
import Idealize.ShloMosaic.Lib.Tactic

noncomputable section

open Idealize.ShloMosaic Idealize.ShloMosaic.TcCoe Idealize.SL.Sem

namespace Cert.Lstm

open Idealize.ShloMosaic.ValueIdx Cert.KernelIdeal Cert.KernelIdeal.Gen Cert.LibDense

variable (m : (ℓ : Loc nD τ sig) → Buf (Elt Ideal) ℓ)

/-- The weight operand `main_v1` is the argument `main_arg3` read with the unit on the second axis. -/
theorem operand_main_v1 (c : Dev nD) :
    (V m c main_v1 : S1024x1024.Idx → Elt Ideal .bf16)
      = unitsLast (m ((c : Thread nD τ).loc main_arg3) : S1024x1024.Idx → Elt Ideal .f32) := by
  have e : (V m c main_v1 : S1024x1024.Idx → Elt Ideal .bf16)
      = truncf (F := Ideal) .bf16 (transpose S1024x1024 [1, 0] (m ((c : Thread nD τ).loc main_arg3) : S1024x1024.Idx → Elt Ideal .f32)
          transposes_S1024x1024_S1024x1024_1_0) bitsLt_bf16_f32 := by
    dsimp only [V, hostOps0]; after_results
  rw [e]
  funext i
  exact transpose_apply [1, 0] _ transposes_S1024x1024_S1024x1024_1_0 i (ix2 (i 1) (i 0))
    (fun b => match b with | ⟨0, _⟩ => rfl | ⟨1, _⟩ => rfl)

/-- The weight operand `main_v3` is the argument `main_arg4` read with the unit on the second axis. -/
theorem operand_main_v3 (c : Dev nD) :
    (V m c main_v3 : S1024x1024.Idx → Elt Ideal .bf16)
      = unitsLast (m ((c : Thread nD τ).loc main_arg4) : S1024x1024.Idx → Elt Ideal .f32) := by
  have e : (V m c main_v3 : S1024x1024.Idx → Elt Ideal .bf16)
      = truncf (F := Ideal) .bf16 (transpose S1024x1024 [1, 0] (m ((c : Thread nD τ).loc main_arg4) : S1024x1024.Idx → Elt Ideal .f32)
          transposes_S1024x1024_S1024x1024_1_0) bitsLt_bf16_f32 := by
    dsimp only [V, hostOps0]; after_results
  rw [e]
  funext i
  exact transpose_apply [1, 0] _ transposes_S1024x1024_S1024x1024_1_0 i (ix2 (i 1) (i 0))
    (fun b => match b with | ⟨0, _⟩ => rfl | ⟨1, _⟩ => rfl)

/-- The weight operand `main_v5` is the argument `main_arg5` read with the unit on the second axis. -/
theorem operand_main_v5 (c : Dev nD) :
    (V m c main_v5 : S1024x1024.Idx → Elt Ideal .bf16)
      = unitsLast (m ((c : Thread nD τ).loc main_arg5) : S1024x1024.Idx → Elt Ideal .f32) := by
  have e : (V m c main_v5 : S1024x1024.Idx → Elt Ideal .bf16)
      = truncf (F := Ideal) .bf16 (transpose S1024x1024 [1, 0] (m ((c : Thread nD τ).loc main_arg5) : S1024x1024.Idx → Elt Ideal .f32)
          transposes_S1024x1024_S1024x1024_1_0) bitsLt_bf16_f32 := by
    dsimp only [V, hostOps0]; after_results
  rw [e]
  funext i
  exact transpose_apply [1, 0] _ transposes_S1024x1024_S1024x1024_1_0 i (ix2 (i 1) (i 0))
    (fun b => match b with | ⟨0, _⟩ => rfl | ⟨1, _⟩ => rfl)

/-- The weight operand `main_v7` is the argument `main_arg6` read with the unit on the second axis. -/
theorem operand_main_v7 (c : Dev nD) :
    (V m c main_v7 : S1024x1024.Idx → Elt Ideal .bf16)
      = unitsLast (m ((c : Thread nD τ).loc main_arg6) : S1024x1024.Idx → Elt Ideal .f32) := by
  have e : (V m c main_v7 : S1024x1024.Idx → Elt Ideal .bf16)
      = truncf (F := Ideal) .bf16 (transpose S1024x1024 [1, 0] (m ((c : Thread nD τ).loc main_arg6) : S1024x1024.Idx → Elt Ideal .f32)
          transposes_S1024x1024_S1024x1024_1_0) bitsLt_bf16_f32 := by
    dsimp only [V, hostOps0]; after_results
  rw [e]
  funext i
  exact transpose_apply [1, 0] _ transposes_S1024x1024_S1024x1024_1_0 i (ix2 (i 1) (i 0))
    (fun b => match b with | ⟨0, _⟩ => rfl | ⟨1, _⟩ => rfl)

/-- The weight operand `main_v9` is the argument `main_arg11` read with the unit on the second axis. -/
theorem operand_main_v9 (c : Dev nD) :
    (V m c main_v9 : S1024x1024.Idx → Elt Ideal .bf16)
      = unitsLast (m ((c : Thread nD τ).loc main_arg11) : S1024x1024.Idx → Elt Ideal .f32) := by
  have e : (V m c main_v9 : S1024x1024.Idx → Elt Ideal .bf16)
      = truncf (F := Ideal) .bf16 (transpose S1024x1024 [1, 0] (m ((c : Thread nD τ).loc main_arg11) : S1024x1024.Idx → Elt Ideal .f32)
          transposes_S1024x1024_S1024x1024_1_0) bitsLt_bf16_f32 := by
    dsimp only [V, hostOps0]; after_results
  rw [e]
  funext i
  exact transpose_apply [1, 0] _ transposes_S1024x1024_S1024x1024_1_0 i (ix2 (i 1) (i 0))
    (fun b => match b with | ⟨0, _⟩ => rfl | ⟨1, _⟩ => rfl)

/-- The weight operand `main_v11` is the argument `main_arg12` read with the unit on the second axis. -/
theorem operand_main_v11 (c : Dev nD) :
    (V m c main_v11 : S1024x1024.Idx → Elt Ideal .bf16)
      = unitsLast (m ((c : Thread nD τ).loc main_arg12) : S1024x1024.Idx → Elt Ideal .f32) := by
  have e : (V m c main_v11 : S1024x1024.Idx → Elt Ideal .bf16)
      = truncf (F := Ideal) .bf16 (transpose S1024x1024 [1, 0] (m ((c : Thread nD τ).loc main_arg12) : S1024x1024.Idx → Elt Ideal .f32)
          transposes_S1024x1024_S1024x1024_1_0) bitsLt_bf16_f32 := by
    dsimp only [V, hostOps0]; after_results
  rw [e]
  funext i
  exact transpose_apply [1, 0] _ transposes_S1024x1024_S1024x1024_1_0 i (ix2 (i 1) (i 0))
    (fun b => match b with | ⟨0, _⟩ => rfl | ⟨1, _⟩ => rfl)

/-- The weight operand `main_v13` is the argument `main_arg13` read with the unit on the second axis. -/
theorem operand_main_v13 (c : Dev nD) :
    (V m c main_v13 : S1024x1024.Idx → Elt Ideal .bf16)
      = unitsLast (m ((c : Thread nD τ).loc main_arg13) : S1024x1024.Idx → Elt Ideal .f32) := by
  have e : (V m c main_v13 : S1024x1024.Idx → Elt Ideal .bf16)
      = truncf (F := Ideal) .bf16 (transpose S1024x1024 [1, 0] (m ((c : Thread nD τ).loc main_arg13) : S1024x1024.Idx → Elt Ideal .f32)
          transposes_S1024x1024_S1024x1024_1_0) bitsLt_bf16_f32 := by
    dsimp only [V, hostOps0]; after_results
  rw [e]
  funext i
  exact transpose_apply [1, 0] _ transposes_S1024x1024_S1024x1024_1_0 i (ix2 (i 1) (i 0))
    (fun b => match b with | ⟨0, _⟩ => rfl | ⟨1, _⟩ => rfl)

/-- The weight operand `main_v15` is the argument `main_arg14` read with the unit on the second axis. -/
theorem operand_main_v15 (c : Dev nD) :
    (V m c main_v15 : S1024x1024.Idx → Elt Ideal .bf16)
      = unitsLast (m ((c : Thread nD τ).loc main_arg14) : S1024x1024.Idx → Elt Ideal .f32) := by
  have e : (V m c main_v15 : S1024x1024.Idx → Elt Ideal .bf16)
      = truncf (F := Ideal) .bf16 (transpose S1024x1024 [1, 0] (m ((c : Thread nD τ).loc main_arg14) : S1024x1024.Idx → Elt Ideal .f32)
          transposes_S1024x1024_S1024x1024_1_0) bitsLt_bf16_f32 := by
    dsimp only [V, hostOps0]; after_results
  rw [e]
  funext i
  exact transpose_apply [1, 0] _ transposes_S1024x1024_S1024x1024_1_0 i (ix2 (i 1) (i 0))
    (fun b => match b with | ⟨0, _⟩ => rfl | ⟨1, _⟩ => rfl)

/-- The bias operand `main_v16` is the argument `main_arg7` as one row. -/
theorem operand_main_v16 (c : Dev nD) :
    (V m c main_v16 : S1x1024.Idx → Elt Ideal .f32)
      = asRow (m ((c : Thread nD τ).loc main_arg7) : S1024.Idx → Elt Ideal .f32) := by
  have e : (V m c main_v16 : S1x1024.Idx → Elt Ideal .f32)
      = shapeCast S1x1024 (m ((c : Thread nD τ).loc main_arg7) : S1024.Idx → Elt Ideal .f32) shapeCasts_S1024_S1x1024 := by
    dsimp only [V, hostOps0]; after_results; rfl
  rw [e]
  funext i
  obtain ⟨u, q, rfl⟩ : ∃ (u : Fin 1) (q : Fin 1024), i = ix2 u q := ⟨i 0, i 1, eq_ix2 i⟩
  exact shapeCast_a_1a_apply _ _ u q

/-- The bias operand `main_v17` is the argument `main_arg8` as one row. -/
theorem operand_main_v17 (c : Dev nD) :
    (V m c main_v17 : S1x1024.Idx → Elt Ideal .f32)
      = asRow (m ((c : Thread nD τ).loc main_arg8) : S1024.Idx → Elt Ideal .f32) := by
  have e : (V m c main_v17 : S1x1024.Idx → Elt Ideal .f32)
      = shapeCast S1x1024 (m ((c : Thread nD τ).loc main_arg8) : S1024.Idx → Elt Ideal .f32) shapeCasts_S1024_S1x1024 := by
    dsimp only [V, hostOps0]; after_results; rfl
  rw [e]
  funext i
  obtain ⟨u, q, rfl⟩ : ∃ (u : Fin 1) (q : Fin 1024), i = ix2 u q := ⟨i 0, i 1, eq_ix2 i⟩
  exact shapeCast_a_1a_apply _ _ u q

/-- The bias operand `main_v18` is the argument `main_arg9` as one row. -/
theorem operand_main_v18 (c : Dev nD) :
    (V m c main_v18 : S1x1024.Idx → Elt Ideal .f32)
      = asRow (m ((c : Thread nD τ).loc main_arg9) : S1024.Idx → Elt Ideal .f32) := by
  have e : (V m c main_v18 : S1x1024.Idx → Elt Ideal .f32)
      = shapeCast S1x1024 (m ((c : Thread nD τ).loc main_arg9) : S1024.Idx → Elt Ideal .f32) shapeCasts_S1024_S1x1024 := by
    dsimp only [V, hostOps0]; after_results; rfl
  rw [e]
  funext i
  obtain ⟨u, q, rfl⟩ : ∃ (u : Fin 1) (q : Fin 1024), i = ix2 u q := ⟨i 0, i 1, eq_ix2 i⟩
  exact shapeCast_a_1a_apply _ _ u q

/-- The bias operand `main_v19` is the argument `main_arg10` as one row. -/
theorem operand_main_v19 (c : Dev nD) :
    (V m c main_v19 : S1x1024.Idx → Elt Ideal .f32)
      = asRow (m ((c : Thread nD τ).loc main_arg10) : S1024.Idx → Elt Ideal .f32) := by
  have e : (V m c main_v19 : S1x1024.Idx → Elt Ideal .f32)
      = shapeCast S1x1024 (m ((c : Thread nD τ).loc main_arg10) : S1024.Idx → Elt Ideal .f32) shapeCasts_S1024_S1x1024 := by
    dsimp only [V, hostOps0]; after_results; rfl
  rw [e]
  funext i
  obtain ⟨u, q, rfl⟩ : ∃ (u : Fin 1) (q : Fin 1024), i = ix2 u q := ⟨i 0, i 1, eq_ix2 i⟩
  exact shapeCast_a_1a_apply _ _ u q

end Cert.Lstm

end
-- ==== Proof.KernelRun.lean ====
/-
  The kernel's run, read: its two result arrays as the LSTM step of the argument arrays.

  The run leaves each result array at the step of the arrays the region finds (the blocks-to-arrays module), the
  region finds x, h and c0 as launched, each weight operand is its argument read with the unit on the second axis and
  each bias operand its argument as one row (the operands module).
-/
import proofs.«152714_j31602369364394_2_alg».proof.Proof.Gen.KernelIdeal.Value
import proofs.«152714_j31602369364394_2_alg».proof.Proof.CellArray
import proofs.«152714_j31602369364394_2_alg».proof.Proof.Operands

noncomputable section

open Idealize.ShloMosaic Idealize.ShloMosaic.TcCoe Idealize.SL.Sem

namespace Cert.Lstm

open Idealize.ShloMosaic.ValueIdx Cert.KernelIdeal Cert.KernelIdeal.Gen Cert.LibDense

variable (m : (ℓ : Loc nD τ sig) → Buf (Elt Ideal) ℓ) (ρ : Dev nD → PrngReg)

/-- The new cell state of the whole batch, from the arguments. -/
abbrev cellOfArgs (c : Dev nD) : S4096x1024.Idx → EReal :=
  cellT (m ((c : Thread nD τ).loc main_arg0) : S4096x1024.Idx → Elt Ideal .f32) (m ((c : Thread nD τ).loc main_arg1) : S4096x1024.Idx → Elt Ideal .f32) (m ((c : Thread nD τ).loc main_arg2) : S4096x1024.Idx → Elt Ideal .f32)
    (unitsLast (m ((c : Thread nD τ).loc main_arg3) : S1024x1024.Idx → Elt Ideal .f32)) (unitsLast (m ((c : Thread nD τ).loc main_arg4) : S1024x1024.Idx → Elt Ideal .f32)) (unitsLast (m ((c : Thread nD τ).loc main_arg6) : S1024x1024.Idx → Elt Ideal .f32))
    (unitsLast (m ((c : Thread nD τ).loc main_arg11) : S1024x1024.Idx → Elt Ideal .f32)) (unitsLast (m ((c : Thread nD τ).loc main_arg12) : S1024x1024.Idx → Elt Ideal .f32)) (unitsLast (m ((c : Thread nD τ).loc main_arg14) : S1024x1024.Idx → Elt Ideal .f32))
    (asRow (m ((c : Thread nD τ).loc main_arg7) : S1024.Idx → Elt Ideal .f32)) (asRow (m ((c : Thread nD τ).loc main_arg8) : S1024.Idx → Elt Ideal .f32)) (asRow (m ((c : Thread nD τ).loc main_arg10) : S1024.Idx → Elt Ideal .f32))

/-- The new hidden state of the whole batch, from the arguments. -/
abbrev hiddenOfArgs (c : Dev nD) : S4096x1024.Idx → EReal :=
  hiddenT (m ((c : Thread nD τ).loc main_arg0) : S4096x1024.Idx → Elt Ideal .f32) (m ((c : Thread nD τ).loc main_arg1) : S4096x1024.Idx → Elt Ideal .f32) (m ((c : Thread nD τ).loc main_arg2) : S4096x1024.Idx → Elt Ideal .f32)
    (unitsLast (m ((c : Thread nD τ).loc main_arg3) : S1024x1024.Idx → Elt Ideal .f32)) (unitsLast (m ((c : Thread nD τ).loc main_arg4) : S1024x1024.Idx → Elt Ideal .f32)) (unitsLast (m ((c : Thread nD τ).loc main_arg5) : S1024x1024.Idx → Elt Ideal .f32)) (unitsLast (m ((c : Thread nD τ).loc main_arg6) : S1024x1024.Idx → Elt Ideal .f32))
    (unitsLast (m ((c : Thread nD τ).loc main_arg11) : S1024x1024.Idx → Elt Ideal .f32)) (unitsLast (m ((c : Thread nD τ).loc main_arg12) : S1024x1024.Idx → Elt Ideal .f32)) (unitsLast (m ((c : Thread nD τ).loc main_arg13) : S1024x1024.Idx → Elt Ideal .f32)) (unitsLast (m ((c : Thread nD τ).loc main_arg14) : S1024x1024.Idx → Elt Ideal .f32))
    (asRow (m ((c : Thread nD τ).loc main_arg7) : S1024.Idx → Elt Ideal .f32)) (asRow (m ((c : Thread nD τ).loc main_arg8) : S1024.Idx → Elt Ideal .f32)) (asRow (m ((c : Thread nD τ).loc main_arg9) : S1024.Idx → Elt Ideal .f32)) (asRow (m ((c : Thread nD τ).loc main_arg10) : S1024.Idx → Elt Ideal .f32))

theorem cellV_eq (c : Dev nD) : cellV m c = cellOfArgs m c := by
  show cellT _ _ _ _ _ _ _ _ _ _ _ _ = cellT _ _ _ _ _ _ _ _ _ _ _ _
  rw [V_main_arg0 m c, V_main_arg1 m c, V_main_arg2 m c, operand_main_v1 m c, operand_main_v3 m c, operand_main_v7 m c,
    operand_main_v9 m c, operand_main_v11 m c, operand_main_v15 m c, operand_main_v16 m c, operand_main_v17 m c,
    operand_main_v19 m c]

theorem hiddenV_eq (c : Dev nD) : hiddenV m c = hiddenOfArgs m c := by
  show hiddenT _ _ _ _ _ _ _ _ _ _ _ _ _ _ _ = hiddenT _ _ _ _ _ _ _ _ _ _ _ _ _ _ _
  rw [V_main_arg0 m c, V_main_arg1 m c, V_main_arg2 m c, operand_main_v1 m c, operand_main_v3 m c, operand_main_v5 m c,
    operand_main_v7 m c, operand_main_v9 m c, operand_main_v11 m c, operand_main_v13 m c, operand_main_v15 m c,
    operand_main_v16 m c, operand_main_v17 m c, operand_main_v18 m c, operand_main_v19 m c]

/-- Every weakly fair execution of the kernel's program ends with the first result at the hidden state and the second
    at the cell state of the arguments, the arguments unchanged. -/
theorem kernel_run : θ_run defs (onTc (τ := τ) (main (F := Ideal))) ⟨m, fun _ => 0, ρ⟩ fun r => ∀ c : Dev nD,
      r.2.mem ((c : Thread nD τ).loc main_v20_0) = hiddenOfArgs m c
      ∧ r.2.mem ((c : Thread nD τ).loc main_v20_1) = cellOfArgs m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans ((finalHidden m c).trans (hiddenV_eq m c)),
      (h c).2.1.trans ((finalCell m c).trans (cellV_eq m c)), (h c).2.2⟩)
    (Cert.KernelIdeal.Value.run_blocks m ρ)

end Cert.Lstm

end
-- ==== Proof.RefCell.lean ====
/-
  The reference program's two results as the LSTM step of its arguments.

  The reference stacks the four gates' input weights into one [4096, 1024] array (and likewise the hidden weights and
  the biases), multiplies once, adds, and cuts the [4096, 4096] result into four column bands. Entry (p, 1024 q + j) of
  the stacked pre-activation reads row j of gate q's weights and entry j of gate q's bias, and is
      ((sum over c of x(p, c) * Wx_q(j, c)) + b_q(j)) + (sum over c of h(p, c) * Wh_q(j, c)),
  the gate's pre-activation with the bias added before the hidden product instead of after: addition of extended reals
  is commutative and associative, so no finiteness is needed. The host's 1 / (1 + exp (-x)) is the logistic function.
-/
import proofs.«152714_j31602369364394_2_alg».proof.Proof.Gen.ReferenceIdeal.Read
import proofs.«152714_j31602369364394_2_alg».proof.Proof.LibLstmCell
import Idealize.ShloMosaic.Lib.Pipeline.Value
import Idealize.ShloMosaic.Lib.ValueIdx

noncomputable section

namespace Cert.Lstm.Ref

open Idealize.ShloMosaic Idealize.ShloMosaic.ValueIdx Cert.LibDense Cert.Lstm
open Cert.ReferenceIdeal Cert.ReferenceIdeal.Gen Cert.ReferenceIdeal.Read

/-! ## The stacked arrays, piece by piece -/

/-- Rows 0 .. 1023 of the stacked array are the first piece. -/
theorem wx_i (x3 x4 x5 x6 : (⟨S1024x1024, .f32⟩ : BufTy).Contents (Elt Ideal)) (J : Fin 4096) (j k : Fin 1024)
    (hJ : J.val = 0 + j.val) : val_main_v0 (F := Ideal) x3 x4 x5 x6 (ix2 J k) = x3 (ix2 j k) := by
  unfold val_main_v0
  refine concatenate_apply_piece (t := S4096x1024) (0 : Fin 2) [⟨S1024x1024, x3⟩, ⟨S1024x1024, x4⟩, ⟨S1024x1024, x5⟩, ⟨S1024x1024, x6⟩] concatenates_S1024x1024_S1024x1024_S1024x1024_S1024x1024_S4096x1024_d0 (ix2 J k) 0 (by show (0 : Nat) < 4; omega) S1024x1024 x3 rfl rfl 0 (by rfl) (ix2 j k) (fun b hb => ?_) ?_
  · match b with
    | ⟨0, _⟩ => exact absurd rfl hb
    | ⟨1, _⟩ => rfl
  · show 0 + j.val = J.val; omega

/-- Rows 1024 .. 2047 of the stacked array are the second piece. -/
theorem wx_f (x3 x4 x5 x6 : (⟨S1024x1024, .f32⟩ : BufTy).Contents (Elt Ideal)) (J : Fin 4096) (j k : Fin 1024)
    (hJ : J.val = 1024 + j.val) : val_main_v0 (F := Ideal) x3 x4 x5 x6 (ix2 J k) = x4 (ix2 j k) := by
  unfold val_main_v0
  refine concatenate_apply_piece (t := S4096x1024) (0 : Fin 2) [⟨S1024x1024, x3⟩, ⟨S1024x1024, x4⟩, ⟨S1024x1024, x5⟩, ⟨S1024x1024, x6⟩] concatenates_S1024x1024_S1024x1024_S1024x1024_S1024x1024_S4096x1024_d0 (ix2 J k) 1 (by show (1 : Nat) < 4; omega) S1024x1024 x4 rfl rfl 1024 (by rfl) (ix2 j k) (fun b hb => ?_) ?_
  · match b with
    | ⟨0, _⟩ => exact absurd rfl hb
    | ⟨1, _⟩ => rfl
  · show 1024 + j.val = J.val; omega

/-- Rows 2048 .. 3071 of the stacked array are the third piece. -/
theorem wx_o (x3 x4 x5 x6 : (⟨S1024x1024, .f32⟩ : BufTy).Contents (Elt Ideal)) (J : Fin 4096) (j k : Fin 1024)
    (hJ : J.val = 2048 + j.val) : val_main_v0 (F := Ideal) x3 x4 x5 x6 (ix2 J k) = x5 (ix2 j k) := by
  unfold val_main_v0
  refine concatenate_apply_piece (t := S4096x1024) (0 : Fin 2) [⟨S1024x1024, x3⟩, ⟨S1024x1024, x4⟩, ⟨S1024x1024, x5⟩, ⟨S1024x1024, x6⟩] concatenates_S1024x1024_S1024x1024_S1024x1024_S1024x1024_S4096x1024_d0 (ix2 J k) 2 (by show (2 : Nat) < 4; omega) S1024x1024 x5 rfl rfl 2048 (by rfl) (ix2 j k) (fun b hb => ?_) ?_
  · match b with
    | ⟨0, _⟩ => exact absurd rfl hb
    | ⟨1, _⟩ => rfl
  · show 2048 + j.val = J.val; omega

/-- Rows 3072 .. 4095 of the stacked array are the fourth piece. -/
theorem wx_g (x3 x4 x5 x6 : (⟨S1024x1024, .f32⟩ : BufTy).Contents (Elt Ideal)) (J : Fin 4096) (j k : Fin 1024)
    (hJ : J.val = 3072 + j.val) : val_main_v0 (F := Ideal) x3 x4 x5 x6 (ix2 J k) = x6 (ix2 j k) := by
  unfold val_main_v0
  refine concatenate_apply_piece (t := S4096x1024) (0 : Fin 2) [⟨S1024x1024, x3⟩, ⟨S1024x1024, x4⟩, ⟨S1024x1024, x5⟩, ⟨S1024x1024, x6⟩] concatenates_S1024x1024_S1024x1024_S1024x1024_S1024x1024_S4096x1024_d0 (ix2 J k) 3 (by show (3 : Nat) < 4; omega) S1024x1024 x6 rfl rfl 3072 (by rfl) (ix2 j k) (fun b hb => ?_) ?_
  · match b with
    | ⟨0, _⟩ => exact absurd rfl hb
    | ⟨1, _⟩ => rfl
  · show 3072 + j.val = J.val; omega

/-- Entries 0 .. 1023 of the stacked vector are the first piece. -/
theorem bx_i (x7 x8 x9 x10 : (⟨S1024, .f32⟩ : BufTy).Contents (Elt Ideal)) (J : Fin 4096) (j : Fin 1024)
    (hJ : J.val = 0 + j.val) : val_main_v1 (F := Ideal) x7 x8 x9 x10 (ix1 J) = x7 (ix1 j) := by
  unfold val_main_v1
  refine concatenate_apply_piece (t := S4096) (0 : Fin 1) [⟨S1024, x7⟩, ⟨S1024, x8⟩, ⟨S1024, x9⟩, ⟨S1024, x10⟩] concatenates_S1024_S1024_S1024_S1024_S4096_d0 (ix1 J) 0 (by show (0 : Nat) < 4; omega) S1024 x7 rfl rfl 0 (by rfl) (ix1 j) (fun b hb => ?_) ?_
  · match b with
    | ⟨0, _⟩ => exact absurd rfl hb
  · show 0 + j.val = J.val; omega

/-- Entries 1024 .. 2047 of the stacked vector are the second piece. -/
theorem bx_f (x7 x8 x9 x10 : (⟨S1024, .f32⟩ : BufTy).Contents (Elt Ideal)) (J : Fin 4096) (j : Fin 1024)
    (hJ : J.val = 1024 + j.val) : val_main_v1 (F := Ideal) x7 x8 x9 x10 (ix1 J) = x8 (ix1 j) := by
  unfold val_main_v1
  refine concatenate_apply_piece (t := S4096) (0 : Fin 1) [⟨S1024, x7⟩, ⟨S1024, x8⟩, ⟨S1024, x9⟩, ⟨S1024, x10⟩] concatenates_S1024_S1024_S1024_S1024_S4096_d0 (ix1 J) 1 (by show (1 : Nat) < 4; omega) S1024 x8 rfl rfl 1024 (by rfl) (ix1 j) (fun b hb => ?_) ?_
  · match b with
    | ⟨0, _⟩ => exact absurd rfl hb
  · show 1024 + j.val = J.val; omega

/-- Entries 2048 .. 3071 of the stacked vector are the third piece. -/
theorem bx_o (x7 x8 x9 x10 : (⟨S1024, .f32⟩ : BufTy).Contents (Elt Ideal)) (J : Fin 4096) (j : Fin 1024)
    (hJ : J.val = 2048 + j.val) : val_main_v1 (F := Ideal) x7 x8 x9 x10 (ix1 J) = x9 (ix1 j) := by
  unfold val_main_v1
  refine concatenate_apply_piece (t := S4096) (0 : Fin 1) [⟨S1024, x7⟩, ⟨S1024, x8⟩, ⟨S1024, x9⟩, ⟨S1024, x10⟩] concatenates_S1024_S1024_S1024_S1024_S4096_d0 (ix1 J) 2 (by show (2 : Nat) < 4; omega) S1024 x9 rfl rfl 2048 (by rfl) (ix1 j) (fun b hb => ?_) ?_
  · match b with
    | ⟨0, _⟩ => exact absurd rfl hb
  · show 2048 + j.val = J.val; omega

/-- Entries 3072 .. 4095 of the stacked vector are the fourth piece. -/
theorem bx_g (x7 x8 x9 x10 : (⟨S1024, .f32⟩ : BufTy).Contents (Elt Ideal)) (J : Fin 4096) (j : Fin 1024)
    (hJ : J.val = 3072 + j.val) : val_main_v1 (F := Ideal) x7 x8 x9 x10 (ix1 J) = x10 (ix1 j) := by
  unfold val_main_v1
  refine concatenate_apply_piece (t := S4096) (0 : Fin 1) [⟨S1024, x7⟩, ⟨S1024, x8⟩, ⟨S1024, x9⟩, ⟨S1024, x10⟩] concatenates_S1024_S1024_S1024_S1024_S4096_d0 (ix1 J) 3 (by show (3 : Nat) < 4; omega) S1024 x10 rfl rfl 3072 (by rfl) (ix1 j) (fun b hb => ?_) ?_
  · match b with
    | ⟨0, _⟩ => exact absurd rfl hb
  · show 3072 + j.val = J.val; omega

/-- Rows 0 .. 1023 of the stacked array are the first piece. -/
theorem wh_i (x11 x12 x13 x14 : (⟨S1024x1024, .f32⟩ : BufTy).Contents (Elt Ideal)) (J : Fin 4096) (j k : Fin 1024)
    (hJ : J.val = 0 + j.val) : val_main_v2 (F := Ideal) x11 x12 x13 x14 (ix2 J k) = x11 (ix2 j k) := by
  unfold val_main_v2
  refine concatenate_apply_piece (t := S4096x1024) (0 : Fin 2) [⟨S1024x1024, x11⟩, ⟨S1024x1024, x12⟩, ⟨S1024x1024, x13⟩, ⟨S1024x1024, x14⟩] concatenates_S1024x1024_S1024x1024_S1024x1024_S1024x1024_S4096x1024_d0 (ix2 J k) 0 (by show (0 : Nat) < 4; omega) S1024x1024 x11 rfl rfl 0 (by rfl) (ix2 j k) (fun b hb => ?_) ?_
  · match b with
    | ⟨0, _⟩ => exact absurd rfl hb
    | ⟨1, _⟩ => rfl
  · show 0 + j.val = J.val; omega

/-- Rows 1024 .. 2047 of the stacked array are the second piece. -/
theorem wh_f (x11 x12 x13 x14 : (⟨S1024x1024, .f32⟩ : BufTy).Contents (Elt Ideal)) (J : Fin 4096) (j k : Fin 1024)
    (hJ : J.val = 1024 + j.val) : val_main_v2 (F := Ideal) x11 x12 x13 x14 (ix2 J k) = x12 (ix2 j k) := by
  unfold val_main_v2
  refine concatenate_apply_piece (t := S4096x1024) (0 : Fin 2) [⟨S1024x1024, x11⟩, ⟨S1024x1024, x12⟩, ⟨S1024x1024, x13⟩, ⟨S1024x1024, x14⟩] concatenates_S1024x1024_S1024x1024_S1024x1024_S1024x1024_S4096x1024_d0 (ix2 J k) 1 (by show (1 : Nat) < 4; omega) S1024x1024 x12 rfl rfl 1024 (by rfl) (ix2 j k) (fun b hb => ?_) ?_
  · match b with
    | ⟨0, _⟩ => exact absurd rfl hb
    | ⟨1, _⟩ => rfl
  · show 1024 + j.val = J.val; omega

/-- Rows 2048 .. 3071 of the stacked array are the third piece. -/
theorem wh_o (x11 x12 x13 x14 : (⟨S1024x1024, .f32⟩ : BufTy).Contents (Elt Ideal)) (J : Fin 4096) (j k : Fin 1024)
    (hJ : J.val = 2048 + j.val) : val_main_v2 (F := Ideal) x11 x12 x13 x14 (ix2 J k) = x13 (ix2 j k) := by
  unfold val_main_v2
  refine concatenate_apply_piece (t := S4096x1024) (0 : Fin 2) [⟨S1024x1024, x11⟩, ⟨S1024x1024, x12⟩, ⟨S1024x1024, x13⟩, ⟨S1024x1024, x14⟩] concatenates_S1024x1024_S1024x1024_S1024x1024_S1024x1024_S4096x1024_d0 (ix2 J k) 2 (by show (2 : Nat) < 4; omega) S1024x1024 x13 rfl rfl 2048 (by rfl) (ix2 j k) (fun b hb => ?_) ?_
  · match b with
    | ⟨0, _⟩ => exact absurd rfl hb
    | ⟨1, _⟩ => rfl
  · show 2048 + j.val = J.val; omega

/-- Rows 3072 .. 4095 of the stacked array are the fourth piece. -/
theorem wh_g (x11 x12 x13 x14 : (⟨S1024x1024, .f32⟩ : BufTy).Contents (Elt Ideal)) (J : Fin 4096) (j k : Fin 1024)
    (hJ : J.val = 3072 + j.val) : val_main_v2 (F := Ideal) x11 x12 x13 x14 (ix2 J k) = x14 (ix2 j k) := by
  unfold val_main_v2
  refine concatenate_apply_piece (t := S4096x1024) (0 : Fin 2) [⟨S1024x1024, x11⟩, ⟨S1024x1024, x12⟩, ⟨S1024x1024, x13⟩, ⟨S1024x1024, x14⟩] concatenates_S1024x1024_S1024x1024_S1024x1024_S1024x1024_S4096x1024_d0 (ix2 J k) 3 (by show (3 : Nat) < 4; omega) S1024x1024 x14 rfl rfl 3072 (by rfl) (ix2 j k) (fun b hb => ?_) ?_
  · match b with
    | ⟨0, _⟩ => exact absurd rfl hb
    | ⟨1, _⟩ => rfl
  · show 3072 + j.val = J.val; omega

/-! ## The stacked pre-activation at an entry -/

/-- Entry (p, J) of the stacked pre-activation, when row J of the stacked weights is row j of a gate's weights and
    entry J of the stacked bias is entry j of the gate's bias: the gate's pre-activation at (p, j). -/
theorem pre_entry (x0 x1 : (⟨S4096x1024, .f32⟩ : BufTy).Contents (Elt Ideal)) (x3 x4 x5 x6 : (⟨S1024x1024, .f32⟩ : BufTy).Contents (Elt Ideal))
    (x7 x8 x9 x10 : (⟨S1024, .f32⟩ : BufTy).Contents (Elt Ideal)) (x11 x12 x13 x14 : (⟨S1024x1024, .f32⟩ : BufTy).Contents (Elt Ideal))
    (p J : Fin 4096) (j : Fin 1024) (Wx Wh : S1024x1024.Idx → EReal) (b : S1024.Idx → EReal)
    (hWx : ∀ k : Fin 1024, val_main_v0 (F := Ideal) x3 x4 x5 x6 (ix2 J k) = Wx (ix2 j k))
    (hb : val_main_v1 (F := Ideal) x7 x8 x9 x10 (ix1 J) = b (ix1 j))
    (hWh : ∀ k : Fin 1024, val_main_v2 (F := Ideal) x11 x12 x13 x14 (ix2 J k) = Wh (ix2 j k)) :
    val_main_v10 (F := Ideal) x0 x1 x3 x4 x5 x6 x7 x8 x9 x10 x11 x12 x13 x14 (ix2 p J)
      = gatePre x0 (unitsLast Wx) x1 (unitsLast Wh) (asRow b) (ix2 p j) := by
  have el4 : ∀ k : Fin 1024, lidx_main_v4 (ix2 p J) k = ix2 p k := fun k =>
    funext fun a => Fin.ext (by match a with | ⟨0, _⟩ => rfl | ⟨1, _⟩ => rfl)
  have er4 : ∀ k : Fin 1024, idx_main_v3 (ridx_main_v4 (ix2 p J) k) = ix2 J k := fun k =>
    funext fun a => Fin.ext (by match a with | ⟨0, _⟩ => rfl | ⟨1, _⟩ => rfl)
  have el9 : ∀ k : Fin 1024, lidx_main_v9 (ix2 p J) k = ix2 p k := fun k =>
    funext fun a => Fin.ext (by match a with | ⟨0, _⟩ => rfl | ⟨1, _⟩ => rfl)
  have er9 : ∀ k : Fin 1024, idx_main_v8 (ridx_main_v9 (ix2 p J) k) = ix2 J k := fun k =>
    funext fun a => Fin.ext (by match a with | ⟨0, _⟩ => rfl | ⟨1, _⟩ => rfl)
  have eb : idx_main_v5 (idx_main_v6 (ix2 p J)) = ix1 J :=
    funext fun a => Fin.ext (by match a with | ⟨0, _⟩ => rfl)
  rw [val_main_v10_apply, val_main_v7_apply, val_main_v4_apply, val_main_v9_apply, val_main_v6_apply, val_main_v5_apply,
    gatePre_apply]
  simp only [val_main_v3_apply, val_main_v8_apply, el4, er4, el9, er9, eb, hWx, hWh, hb]
  exact add_right_comm _ _ _

/-! ## The four gates -/

/-- The input gate's band of the stacked pre-activation. -/
theorem gate_i (x0 x1 : (⟨S4096x1024, .f32⟩ : BufTy).Contents (Elt Ideal)) (x3 x4 x5 x6 : (⟨S1024x1024, .f32⟩ : BufTy).Contents (Elt Ideal))
    (x7 x8 x9 x10 : (⟨S1024, .f32⟩ : BufTy).Contents (Elt Ideal)) (x11 x12 x13 x14 : (⟨S1024x1024, .f32⟩ : BufTy).Contents (Elt Ideal))
    (p : Fin 4096) (j : Fin 1024) :
    val_main_v11 (F := Ideal) x0 x1 x3 x4 x5 x6 x7 x8 x9 x10 x11 x12 x13 x14 (ix2 p j)
      = gatePre x0 (unitsLast x3) x1 (unitsLast x11) (asRow x7) (ix2 p j) := by
  have hj : 0 + j.val < 4096 := by have := j.isLt; omega
  have e : idx_main_v11 (ix2 p j) = ix2 p (⟨0 + j.val, hj⟩ : Fin 4096) :=
    funext fun a => Fin.ext (by match a with | ⟨0, _⟩ => rfl | ⟨1, _⟩ => exact (Nat.zero_add _).symm)
  rw [val_main_v11_apply, e]
  exact pre_entry x0 x1 x3 x4 x5 x6 x7 x8 x9 x10 x11 x12 x13 x14 p ⟨0 + j.val, hj⟩ j x3 x11 x7
    (fun k => wx_i x3 x4 x5 x6 _ j k rfl) (bx_i x7 x8 x9 x10 _ j rfl) (fun k => wh_i x11 x12 x13 x14 _ j k rfl)

/-- The host's 1 / (1 + exp (-x)) of that band is its logistic function. -/
theorem sigmoid_i (x0 x1 : (⟨S4096x1024, .f32⟩ : BufTy).Contents (Elt Ideal)) (x3 x4 x5 x6 : (⟨S1024x1024, .f32⟩ : BufTy).Contents (Elt Ideal))
    (x7 x8 x9 x10 : (⟨S1024, .f32⟩ : BufTy).Contents (Elt Ideal)) (x11 x12 x13 x14 : (⟨S1024x1024, .f32⟩ : BufTy).Contents (Elt Ideal)) :
    val_main_v20 (F := Ideal) x0 x1 x3 x4 x5 x6 x7 x8 x9 x10 x11 x12 x13 x14
      = logistic (F := Ideal) (φ := .f32) (val_main_v11 (F := Ideal) x0 x1 x3 x4 x5 x6 x7 x8 x9 x10 x11 x12 x13 x14) := by
  unfold val_main_v20 val_main_v19 val_main_v18 val_main_v17 val_main_v16 val_main_v15 val_main_cst val_main_cst_0
  exact hostSigmoid _ _

/-- The forget gate's band of the stacked pre-activation. -/
theorem gate_f (x0 x1 : (⟨S4096x1024, .f32⟩ : BufTy).Contents (Elt Ideal)) (x3 x4 x5 x6 : (⟨S1024x1024, .f32⟩ : BufTy).Contents (Elt Ideal))
    (x7 x8 x9 x10 : (⟨S1024, .f32⟩ : BufTy).Contents (Elt Ideal)) (x11 x12 x13 x14 : (⟨S1024x1024, .f32⟩ : BufTy).Contents (Elt Ideal))
    (p : Fin 4096) (j : Fin 1024) :
    val_main_v12 (F := Ideal) x0 x1 x3 x4 x5 x6 x7 x8 x9 x10 x11 x12 x13 x14 (ix2 p j)
      = gatePre x0 (unitsLast x4) x1 (unitsLast x12) (asRow x8) (ix2 p j) := by
  have hj : 1024 + j.val < 4096 := by have := j.isLt; omega
  have e : idx_main_v12 (ix2 p j) = ix2 p (⟨1024 + j.val, hj⟩ : Fin 4096) :=
    funext fun a => Fin.ext (by match a with | ⟨0, _⟩ => rfl | ⟨1, _⟩ => rfl)
  rw [val_main_v12_apply, e]
  exact pre_entry x0 x1 x3 x4 x5 x6 x7 x8 x9 x10 x11 x12 x13 x14 p ⟨1024 + j.val, hj⟩ j x4 x12 x8
    (fun k => wx_f x3 x4 x5 x6 _ j k rfl) (bx_f x7 x8 x9 x10 _ j rfl) (fun k => wh_f x11 x12 x13 x14 _ j k rfl)

/-- The host's 1 / (1 + exp (-x)) of that band is its logistic function. -/
theorem sigmoid_f (x0 x1 : (⟨S4096x1024, .f32⟩ : BufTy).Contents (Elt Ideal)) (x3 x4 x5 x6 : (⟨S1024x1024, .f32⟩ : BufTy).Contents (Elt Ideal))
    (x7 x8 x9 x10 : (⟨S1024, .f32⟩ : BufTy).Contents (Elt Ideal)) (x11 x12 x13 x14 : (⟨S1024x1024, .f32⟩ : BufTy).Contents (Elt Ideal)) :
    val_main_v26 (F := Ideal) x0 x1 x3 x4 x5 x6 x7 x8 x9 x10 x11 x12 x13 x14
      = logistic (F := Ideal) (φ := .f32) (val_main_v12 (F := Ideal) x0 x1 x3 x4 x5 x6 x7 x8 x9 x10 x11 x12 x13 x14) := by
  unfold val_main_v26 val_main_v25 val_main_v24 val_main_v23 val_main_v22 val_main_v21 val_main_cst_1 val_main_cst_2
  exact hostSigmoid _ _

/-- The output gate's band of the stacked pre-activation. -/
theorem gate_o (x0 x1 : (⟨S4096x1024, .f32⟩ : BufTy).Contents (Elt Ideal)) (x3 x4 x5 x6 : (⟨S1024x1024, .f32⟩ : BufTy).Contents (Elt Ideal))
    (x7 x8 x9 x10 : (⟨S1024, .f32⟩ : BufTy).Contents (Elt Ideal)) (x11 x12 x13 x14 : (⟨S1024x1024, .f32⟩ : BufTy).Contents (Elt Ideal))
    (p : Fin 4096) (j : Fin 1024) :
    val_main_v13 (F := Ideal) x0 x1 x3 x4 x5 x6 x7 x8 x9 x10 x11 x12 x13 x14 (ix2 p j)
      = gatePre x0 (unitsLast x5) x1 (unitsLast x13) (asRow x9) (ix2 p j) := by
  have hj : 2048 + j.val < 4096 := by have := j.isLt; omega
  have e : idx_main_v13 (ix2 p j) = ix2 p (⟨2048 + j.val, hj⟩ : Fin 4096) :=
    funext fun a => Fin.ext (by match a with | ⟨0, _⟩ => rfl | ⟨1, _⟩ => rfl)
  rw [val_main_v13_apply, e]
  exact pre_entry x0 x1 x3 x4 x5 x6 x7 x8 x9 x10 x11 x12 x13 x14 p ⟨2048 + j.val, hj⟩ j x5 x13 x9
    (fun k => wx_o x3 x4 x5 x6 _ j k rfl) (bx_o x7 x8 x9 x10 _ j rfl) (fun k => wh_o x11 x12 x13 x14 _ j k rfl)

/-- The host's 1 / (1 + exp (-x)) of that band is its logistic function. -/
theorem sigmoid_o (x0 x1 : (⟨S4096x1024, .f32⟩ : BufTy).Contents (Elt Ideal)) (x3 x4 x5 x6 : (⟨S1024x1024, .f32⟩ : BufTy).Contents (Elt Ideal))
    (x7 x8 x9 x10 : (⟨S1024, .f32⟩ : BufTy).Contents (Elt Ideal)) (x11 x12 x13 x14 : (⟨S1024x1024, .f32⟩ : BufTy).Contents (Elt Ideal)) :
    val_main_v32 (F := Ideal) x0 x1 x3 x4 x5 x6 x7 x8 x9 x10 x11 x12 x13 x14
      = logistic (F := Ideal) (φ := .f32) (val_main_v13 (F := Ideal) x0 x1 x3 x4 x5 x6 x7 x8 x9 x10 x11 x12 x13 x14) := by
  unfold val_main_v32 val_main_v31 val_main_v30 val_main_v29 val_main_v28 val_main_v27 val_main_cst_3 val_main_cst_4
  exact hostSigmoid _ _

/-- The candidate gate's band of the stacked pre-activation. -/
theorem gate_g (x0 x1 : (⟨S4096x1024, .f32⟩ : BufTy).Contents (Elt Ideal)) (x3 x4 x5 x6 : (⟨S1024x1024, .f32⟩ : BufTy).Contents (Elt Ideal))
    (x7 x8 x9 x10 : (⟨S1024, .f32⟩ : BufTy).Contents (Elt Ideal)) (x11 x12 x13 x14 : (⟨S1024x1024, .f32⟩ : BufTy).Contents (Elt Ideal))
    (p : Fin 4096) (j : Fin 1024) :
    val_main_v14 (F := Ideal) x0 x1 x3 x4 x5 x6 x7 x8 x9 x10 x11 x12 x13 x14 (ix2 p j)
      = gatePre x0 (unitsLast x6) x1 (unitsLast x14) (asRow x10) (ix2 p j) := by
  have hj : 3072 + j.val < 4096 := by have := j.isLt; omega
  have e : idx_main_v14 (ix2 p j) = ix2 p (⟨3072 + j.val, hj⟩ : Fin 4096) :=
    funext fun a => Fin.ext (by match a with | ⟨0, _⟩ => rfl | ⟨1, _⟩ => rfl)
  rw [val_main_v14_apply, e]
  exact pre_entry x0 x1 x3 x4 x5 x6 x7 x8 x9 x10 x11 x12 x13 x14 p ⟨3072 + j.val, hj⟩ j x6 x14 x10
    (fun k => wx_g x3 x4 x5 x6 _ j k rfl) (bx_g x7 x8 x9 x10 _ j rfl) (fun k => wh_g x11 x12 x13 x14 _ j k rfl)

/-! ## The two results -/

/-- The reference's second result is the cell state of its arguments, the weights read with the unit on the second
    axis and the biases as rows. -/
theorem cell_eq (x0 x1 x2 : (⟨S4096x1024, .f32⟩ : BufTy).Contents (Elt Ideal)) (x3 x4 x5 x6 : (⟨S1024x1024, .f32⟩ : BufTy).Contents (Elt Ideal))
    (x7 x8 x9 x10 : (⟨S1024, .f32⟩ : BufTy).Contents (Elt Ideal)) (x11 x12 x13 x14 : (⟨S1024x1024, .f32⟩ : BufTy).Contents (Elt Ideal)) :
    val_main_v36 (F := Ideal) x0 x1 x2 x3 x4 x5 x6 x7 x8 x9 x10 x11 x12 x13 x14
      = cellT x0 x1 x2 (unitsLast x3) (unitsLast x4) (unitsLast x6) (unitsLast x11) (unitsLast x12) (unitsLast x14)
          (asRow x7) (asRow x8) (asRow x10) := by
  funext i
  obtain ⟨p, j, rfl⟩ : ∃ (p : Fin 4096) (j : Fin 1024), i = ix2 p j := ⟨i 0, i 1, eq_ix2 i⟩
  rw [val_main_v36_apply, val_main_v34_apply, val_main_v35_apply, val_main_v33_apply, sigmoid_f, sigmoid_i]
  simp only [logistic]
  rw [gate_f, gate_i, gate_g]
  rfl

/-- The reference's first result is the hidden state of its arguments. -/
theorem hidden_eq (x0 x1 x2 : (⟨S4096x1024, .f32⟩ : BufTy).Contents (Elt Ideal)) (x3 x4 x5 x6 : (⟨S1024x1024, .f32⟩ : BufTy).Contents (Elt Ideal))
    (x7 x8 x9 x10 : (⟨S1024, .f32⟩ : BufTy).Contents (Elt Ideal)) (x11 x12 x13 x14 : (⟨S1024x1024, .f32⟩ : BufTy).Contents (Elt Ideal)) :
    val_main_v38 (F := Ideal) x0 x1 x2 x3 x4 x5 x6 x7 x8 x9 x10 x11 x12 x13 x14
      = hiddenT x0 x1 x2 (unitsLast x3) (unitsLast x4) (unitsLast x5) (unitsLast x6)
          (unitsLast x11) (unitsLast x12) (unitsLast x13) (unitsLast x14) (asRow x7) (asRow x8) (asRow x9) (asRow x10) := by
  funext i
  obtain ⟨p, j, rfl⟩ : ∃ (p : Fin 4096) (j : Fin 1024), i = ix2 p j := ⟨i 0, i 1, eq_ix2 i⟩
  rw [val_main_v38_apply, val_main_v37_apply, sigmoid_o, cell_eq]
  simp only [logistic]
  rw [gate_o]
  rfl

end Cert.Lstm.Ref

end
-- ==== Proof.lean ====
/-
  The certificate of an LSTM step computed by one tiled kernel against the whole-array reference.

  Both programs compute, for a batch of 4096 rows and 1024 units, the new hidden and cell states from x, h0, c0, eight
  weight arrays and four bias vectors. The kernel runs 16 blocks of 256 rows; each gate is two products into zero
  accumulators, added, plus the bias row. The reference stacks the four gates' weights and biases, multiplies once per
  input, and adds the bias between the two products. On the extended reals a change of float format is the identity,
  the kernel's logistic operation and the host's 1 / (1 + exp (-x)) are one function, and addition is commutative and
  associative, so the two programs' results are equal entry by entry; the precondition is not used. The ideal pass
  rewrote nothing, so the idealized kernel is the kernel's own text read on the extended reals.
-/
import proofs.«152714_j31602369364394_2_alg».proof.Defs
import proofs.«152714_j31602369364394_2_alg».proof.Proof.Gen.Kernel
import proofs.«152714_j31602369364394_2_alg».proof.Proof.Gen.Kernel.Skeleton
import proofs.«152714_j31602369364394_2_alg».proof.Proof.Gen.Kernel.Launch
import proofs.«152714_j31602369364394_2_alg».proof.Proof.Gen.Kernel.Points
import proofs.«152714_j31602369364394_2_alg».proof.Proof.Gen.Kernel.Frame
import proofs.«152714_j31602369364394_2_alg».proof.Proof.Gen.KernelIdeal
import proofs.«152714_j31602369364394_2_alg».proof.Proof.Gen.KernelIdeal.Skeleton
import proofs.«152714_j31602369364394_2_alg».proof.Proof.Gen.KernelIdeal.Launch
import proofs.«152714_j31602369364394_2_alg».proof.Proof.Gen.KernelIdeal.Points
import proofs.«152714_j31602369364394_2_alg».proof.Proof.Gen.KernelIdeal.Frame
import proofs.«152714_j31602369364394_2_alg».proof.Proof.Gen.ReferenceIdeal
import proofs.«152714_j31602369364394_2_alg».proof.Proof.Gen.Pre_finite_inputs
import proofs.«152714_j31602369364394_2_alg».proof.Proof.Gen.KernelIdeal.Value
import proofs.«152714_j31602369364394_2_alg».proof.Proof.Gen.ReferenceIdeal.Run
import proofs.«152714_j31602369364394_2_alg».proof.Proof.Gen.ReferenceIdeal.Read
import proofs.«152714_j31602369364394_2_alg».proof.Proof.KernelRun
import proofs.«152714_j31602369364394_2_alg».proof.Proof.RefCell
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments unchanged: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- From memories agreeing on the arguments both programs end with the hidden state and the cell state of the
    arguments: the kernel's run read block by block, the reference's run read operation by operation. -/
theorem algebraic : Cert.algebraic_KernelIdeal_ReferenceIdeal := by
  intro m ρ m' ρ' _ hagree
  refine ⟨fun c => Cert.Lstm.hiddenOfArgs m c, fun c => Cert.Lstm.cellOfArgs m c, Cert.Lstm.kernel_run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14⟩ := hagree c
    rw [Cert.ReferenceIdeal.Read.val_main_v38_eq, Cert.Lstm.Ref.hidden_eq, a0, a1, a2, a3, a4, a5, a6, a7, a8, a9, a10, a11, a12, a13, a14]
  · obtain ⟨a0, a1, a2, a3, a4, a5, a6, a7, a8, a9, a10, a11, a12, a13, a14⟩ := hagree c
    rw [Cert.ReferenceIdeal.Read.val_main_v36_eq, Cert.Lstm.Ref.cell_eq, a0, a1, a2, a3, a4, a6, a7, a8, a10, a11, a12, a14]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
